-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S4x64x64x2 : Shape := ⟨4, ![4, 64, 64, 2]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S4x64x64x2 : S_.BroadcastsInDim S4x64x64x2 (![] : Fin 0 → Fin S4x64x64x2.rank)
  reducesTo_S4x64x64x2_S_d0_1_2_3 : S4x64x64x2.ReducesTo [0, 1, 2, 3] S_

variable [Facts]

def fn {F : FTy → Type} [FloatOps F] (main_arg0 : FVec F S4x128x4096 .f32) (main_arg1 : FVec F S4x64x64x2 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S4x64x64x2 .f32 := Host.absf main_arg1
  let main_cst_0 : FVec F S_ .f32 := constant S_ .f32 0x7F800000#32
  let main_v5 : FVec F S4x64x64x2 .f32 := broadcastInDim S4x64x64x2 ![] bcast_S_S4x64x64x2 main_cst_0
  let main_v6 : IVec S4x64x64x2 1 := cmpf .olt main_v4 main_v5
  let main_c_1 : IVec S_ 1 := constantI S_ 1 1#1
  let main_v7 : IVec S_ 1 := (fun x v => Host.reduce IntOp.andi x v reducesTo_S4x64x64x2_S_d0_1_2_3 h_S_) main_v6 main_c_1
  let main_v8 : IVec S_ 1 := andi main_v3 main_v7
  main_v8
-- ==== Kernel.lean ====
abbrev S4x128x4096 : Shape := ⟨3, ![4, 128, 4096]⟩
abbrev S4x64x64x2 : Shape := ⟨4, ![4, 64, 64, 2]⟩
abbrev S4x2 : Shape := ⟨2, ![4, 2]⟩
abbrev S4x4096x2 : Shape := ⟨3, ![4, 4096, 2]⟩
abbrev S4x4096x1 : Shape := ⟨3, ![4, 4096, 1]⟩
abbrev S4x4096 : Shape := ⟨2, ![4, 4096]⟩
abbrev S_ : Shape := ⟨0, ![]⟩
abbrev S4096 : Shape := ⟨1, ![4096]⟩
abbrev S4x1 : Shape := ⟨2, ![4, 1]⟩
abbrev S4 : Shape := ⟨1, ![4]⟩
abbrev S1x1x4 : Shape := ⟨3, ![1, 1, 4]⟩
abbrev S4x4096x4 : Shape := ⟨3, ![4, 4096, 4]⟩
abbrev S4x4096x2x1 : Shape := ⟨4, ![4, 4096, 2, 1]⟩
abbrev S4x4096x1x2 : Shape := ⟨4, ![4, 4096, 1, 2]⟩
abbrev S4x4096x2x2 : Shape := ⟨4, ![4, 4096, 2, 2]⟩
abbrev S1x4096x1 : Shape := ⟨3, ![1, 4096, 1]⟩
abbrev S4x4096x4096 : Shape := ⟨3, ![4, 4096, 4096]⟩
abbrev S4x1x1 : Shape := ⟨3, ![4, 1, 1]⟩
abbrev S4x4096x4x1 : Shape := ⟨4, ![4, 4096, 4, 1]⟩
abbrev S4x4096x4x3 : Shape := ⟨4, ![4, 4096, 4, 3]⟩
abbrev S1x128x1024 : Shape := ⟨3, ![1, 128, 1024]⟩
abbrev S1x4096x1024 : Shape := ⟨3, ![1, 4096, 1024]⟩
abbrev S1x128x4096 : Shape := ⟨3, ![1, 128, 4096]⟩
abbrev S128x4096 : Shape := ⟨2, ![128, 4096]⟩
abbrev S128x1024 : Shape := ⟨2, ![128, 1024]⟩
abbrev S4096x1024 : Shape := ⟨2, ![4096, 1024]⟩

abbrev nBuf : Space → Nat
  | .hbm => 134
  | .vmem => 6
  | .smem => 0
  | _ => 0

abbrev hbmTy0_0 (i : Nat) : BufTy := match i % 128 with
  | 0 => ⟨S4x128x4096, .f32⟩
  | 1 => ⟨S4x64x64x2, .f32⟩
  | 2 => ⟨S4x2, .i32⟩
  | 3 => ⟨S4x4096x2, .f32⟩
  | 4 => ⟨S4x4096x1, .f32⟩
  | 5 => ⟨S4x4096, .f32⟩
  | 6 => ⟨S_, .f32⟩
  | 7 => ⟨S4x4096, .f32⟩
  | 8 => ⟨S4x4096, .i1⟩
  | 9 => ⟨S_, .i1⟩
  | 10 => ⟨S4096, .i1⟩
  | 11 => ⟨S4x4096x1, .f32⟩
  | 12 => ⟨S4x4096, .f32⟩
  | 13 => ⟨S_, .f32⟩
  | 14 => ⟨S4x4096, .f32⟩
  | 15 => ⟨S4x4096, .i1⟩
  | 16 => ⟨S_, .i1⟩
  | 17 => ⟨S4096, .i1⟩
  | 18 => ⟨S4096, .i1⟩
  | 19 => ⟨S4x4096x1, .f32⟩
  | 20 => ⟨S4x4096, .f32⟩
  | 21 => ⟨S_, .f32⟩
  | 22 => ⟨S4x4096, .f32⟩
  | 23 => ⟨S4x4096, .i1⟩
  | 24 => ⟨S_, .i1⟩
  | 25 => ⟨S4096, .i1⟩
  | 26 => ⟨S4096, .i1⟩
  | 27 => ⟨S4x4096x1, .f32⟩
  | 28 => ⟨S4x4096, .f32⟩
  | 29 => ⟨S_, .f32⟩
  | 30 => ⟨S4x4096, .f32⟩
  | 31 => ⟨S4x4096, .i1⟩
  | 32 => ⟨S_, .i1⟩
  | 33 => ⟨S4096, .i1⟩
  | 34 => ⟨S4096, .i1⟩
  | 35 => ⟨S4x4096x1, .f32⟩
  | 36 => ⟨S4x4096, .f32⟩
  | 37 => ⟨S_, .f32⟩
  | 38 => ⟨S_, .f32⟩
  | 39 => ⟨S_, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S4x4096x1, .f32⟩
  | 46 => ⟨S4x4096, .f32⟩
  | 47 => ⟨S_, .f32⟩
  | 48 => ⟨S_, .f32⟩
  | 49 => ⟨S_, .f32⟩
  | 50 => ⟨S4x4096, .f32⟩
  | 51 => ⟨S4x4096, .f32⟩
  | 52 => ⟨S_, .f32⟩
  | 53 => ⟨S4x4096, .f32⟩
  | 54 => ⟨S4x4096, .f32⟩
  | 55 => ⟨S4x4096, .f32⟩
  | 56 => ⟨S4x4096, .f32⟩
  | 57 => ⟨S4x4096, .f32⟩
  | 58 => ⟨S4x4096, .f32⟩
  | 59 => ⟨S4x4096, .i32⟩
  | 60 => ⟨S4x4096, .i32⟩
  | 61 => ⟨S4x4096x1, .i32⟩
  | 62 => ⟨S4x1, .i32⟩
  | 63 => ⟨S4, .i32⟩
  | 64 => ⟨S1x1x4, .i32⟩
  | 65 => ⟨S4x4096x4, .i32⟩
  | 66 => ⟨S4x4096x4, .i32⟩
  | 67 => ⟨S4x4096x4, .i32⟩
  | 68 => ⟨S_, .i32⟩
  | 69 => ⟨S4x4096x4, .i32⟩
  | 70 => ⟨S4x4096x4, .i32⟩
  | 71 => ⟨S4x4096x1, .i32⟩
  | 72 => ⟨S4x1, .i32⟩
  | 73 => ⟨S4, .i32⟩
  | 74 => ⟨S1x1x4, .i32⟩
  | 75 => ⟨S4x4096x4, .i32⟩
  | 76 => ⟨S4x4096x4, .i32⟩
  | 77 => ⟨S4x4096x4, .i32⟩
  | 78 => ⟨S4x4096x4, .i32⟩
  | 79 => ⟨S_, .f32⟩
  | 80 => ⟨S4x4096, .f32⟩
  | 81 => ⟨S4x4096, .f32⟩
  | 82 => ⟨S4x4096x1, .f32⟩
  | 83 => ⟨S4x4096x1, .f32⟩
  | 84 => ⟨S4x4096x2, .f32⟩
  | 85 => ⟨S4x4096x1, .f32⟩
  | 86 => ⟨S4x4096x1, .f32⟩
  | 87 => ⟨S4x4096x2, .f32⟩
  | 88 => ⟨S4x4096x2x1, .f32⟩
  | 89 => ⟨S4x4096x1x2, .f32⟩
  | 90 => ⟨S4x4096x2x2, .f32⟩
  | 91 => ⟨S4x4096x2x2, .f32⟩
  | 92 => ⟨S4x4096x2x2, .f32⟩
  | 93 => ⟨S4x4096x4, .f32⟩
  | 94 => ⟨S4096, .f32⟩
  | 95 => ⟨S1x4096x1, .f32⟩
  | 96 => ⟨S4x4096x4, .f32⟩
  | 97 => ⟨S4x4096x4, .f32⟩
  | 98 => ⟨S4x4096x4, .bf16⟩
  | 99 => ⟨S_, .bf16⟩
  | 100 => ⟨S4x4096x4096, .bf16⟩
  | 101 => ⟨S4, .i32⟩
  | 102 => ⟨S4x1x1, .i32⟩
  | 103 => ⟨S4096, .i32⟩
  | 104 => ⟨S1x4096x1, .i32⟩
  | 105 => ⟨S_, .i32⟩
  | 106 => ⟨S4x1x1, .i32⟩
  | 107 => ⟨S4x1x1, .i1⟩
  | 108 => ⟨S_, .i32⟩
  | 109 => ⟨S4x1x1, .i32⟩
  | 110 => ⟨S4x1x1, .i32⟩
  | 111 => ⟨S4x1x1, .i32⟩
  | 112 => ⟨S_, .i32⟩
  | 113 => ⟨S1x4096x1, .i32⟩
  | 114 => ⟨S1x4096x1, .i1⟩
  | 115 => ⟨S_, .i32⟩
  | 116 => ⟨S1x4096x1, .i32⟩
  | 117 => ⟨S1x4096x1, .i32⟩
  | 118 => ⟨S1x4096x1, .i32⟩
  | 119 => ⟨S_, .i32⟩
  | 120 => ⟨S4x4096x4, .i32⟩
  | 121 => ⟨S4x4096x4, .i1⟩
  | 122 => ⟨S_, .i32⟩
  | 123 => ⟨S4x4096x4, .i32⟩
  | 124 => ⟨S4x4096x4, .i32⟩
  | 125 => ⟨S4x4096x4, .i32⟩
  | 126 => ⟨S4x4096x4, .i32⟩
  | 127 => ⟨S4x4096x4, .i32⟩
  | _ => ⟨S4x128x4096, .f32⟩

abbrev hbmTy0_1 (i : Nat) : BufTy := match i % 128 with
  | 0 => ⟨S4x4096x4x1, .i32⟩
  | 1 => ⟨S4x4096x4x1, .i32⟩
  | 2 => ⟨S4x4096x4x1, .i32⟩
  | 3 => ⟨S4x4096x4x3, .i32⟩
  | 4 => ⟨S4x4096x4096, .bf16⟩
  | 5 => ⟨S4x128x4096, .f32⟩
  | _ => ⟨S4x128x4096, .f32⟩

abbrev hbmTy (i : Nat) : BufTy := match i / 128 with
  | 0 => hbmTy0_0 i
  | 1 => hbmTy0_1 i
  | _ => ⟨S4x128x4096, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x128x1024, .f32⟩
  | .local _ .vmem, ⟨2, _⟩ => ⟨S1x4096x1024, .bf16⟩
  | .local _ .vmem, ⟨3, _⟩ => ⟨S1x4096x1024, .bf16⟩
  | .local _ .vmem, ⟨4, _⟩ => ⟨S1x128x4096, .f32⟩
  | .local _ .vmem, ⟨5, _⟩ => ⟨S1x128x4096, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_16 : Ref sig .tc := ⟨.hbm, 112, rfl⟩
abbrev main_v82 : Ref sig .tc := ⟨.hbm, 113, rfl⟩
abbrev main_v83 : Ref sig .tc := ⟨.hbm, 114, rfl⟩
abbrev main_c_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_18 : Ref sig .tc := ⟨.hbm, 119, rfl⟩
abbrev main_v87 : Ref sig .tc := ⟨.hbm, 120, rfl⟩
abbrev main_v88 : Ref sig .tc := ⟨.hbm, 121, rfl⟩
abbrev main_c_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x64x64x2_S4x4096x2 : S4x64x64x2.ShapeCasts S4x4096x2
  slices_S4x4096x2_S4x4096x1_0_0_0 : S4x4096x2.Slices ![0, 0, 0] S4x4096x1
  shapeCasts_S4x4096x1_S4x4096 : S4x4096x1.ShapeCasts S4x4096
  bcast_S_S4x4096 : S_.BroadcastsInDim S4x4096 (![] : Fin 0 → Fin S4x4096.rank)
  reducesTo_S4x4096_S4096_d0 : S4x4096.ReducesTo [0] S4096
  h_S_ : 0 < S_.numel
  slices_S4x4096x2_S4x4096x1_0_0_1 : S4x4096x2.Slices ![0, 0, 1] S4x4096x1
  bcast_S4x4096_S4x4096x1_0_1 : S4x4096.BroadcastsInDim S4x4096x1 (![0, 1] : Fin 2 → Fin S4x4096x1.rank)
  slices_S4x2_S4x1_0_0 : S4x2.Slices ![0, 0] S4x1
  shapeCasts_S4x1_S4 : S4x1.ShapeCasts S4
  bcast_S4_S1x1x4_2 : S4.BroadcastsInDim S1x1x4 (![2] : Fin 1 → Fin S1x1x4.rank)
  bcast_S4x4096x1_S4x4096x4_0_1_2 : S4x4096x1.BroadcastsInDim S4x4096x4 (![0, 1, 2] : Fin 3 → Fin S4x4096x4.rank)
  bcast_S1x1x4_S4x4096x4_0_1_2 : S1x1x4.BroadcastsInDim S4x4096x4 (![0, 1, 2] : Fin 3 → Fin S4x4096x4.rank)
  bcast_S_S4x4096x4 : S_.BroadcastsInDim S4x4096x4 (![] : Fin 0 → Fin S4x4096x4.rank)
  slices_S4x2_S4x1_0_1 : S4x2.Slices ![0, 1] S4x1
  concatenates_S4x4096x1_S4x4096x1_S4x4096x2_d2 : Shape.Concatenates [S4x4096x1, S4x4096x1] S4x4096x2 2
  bcast_S4x4096x2_S4x4096x2x1_0_1_2 : S4x4096x2.BroadcastsInDim S4x4096x2x1 (![0, 1, 2] : Fin 3 → Fin S4x4096x2x1.rank)
  bcast_S4x4096x2_S4x4096x1x2_0_1_3 : S4x4096x2.BroadcastsInDim S4x4096x1x2 (![0, 1, 3] : Fin 3 → Fin S4x4096x1x2.rank)
  bcast_S4x4096x2x1_S4x4096x2x2_0_1_2_3 : S4x4096x2x1.BroadcastsInDim S4x4096x2x2 (![0, 1, 2, 3] : Fin 4 → Fin S4x4096x2x2.rank)
  bcast_S4x4096x1x2_S4x4096x2x2_0_1_2_3 : S4x4096x1x2.BroadcastsInDim S4x4096x2x2 (![0, 1, 2, 3] : Fin 4 → Fin S4x4096x2x2.rank)
  shapeCasts_S4x4096x2x2_S4x4096x4 : S4x4096x2x2.ShapeCasts S4x4096x4
  bcast_S4096_S1x4096x1_1 : S4096.BroadcastsInDim S1x4096x1 (![1] : Fin 1 → Fin S1x4096x1.rank)
  bcast_S1x4096x1_S4x4096x4_0_1_2 : S1x4096x1.BroadcastsInDim S4x4096x4 (![0, 1, 2] : Fin 3 → Fin S4x4096x4.rank)
  bitsLt_bf16_f32 : FTy.bits .bf16 < FTy.bits .f32
  bcast_S_S4x4096x4096 : S_.BroadcastsInDim S4x4096x4096 (![] : Fin 0 → Fin S4x4096x4096.rank)
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S1x4096x1 : S_.BroadcastsInDim S1x4096x1 (![] : Fin 0 → Fin S1x4096x1.rank)
  bcast_S4x1x1_S4x4096x4_0_1_2 : S4x1x1.BroadcastsInDim S4x4096x4 (![0, 1, 2] : Fin 3 → Fin S4x4096x4.rank)
  bcast_S4x4096x4_S4x4096x4x1_0_1_2 : S4x4096x4.BroadcastsInDim S4x4096x4x1 (![0, 1, 2] : Fin 3 → Fin S4x4096x4x1.rank)
  concatenates_S4x4096x4x1_S4x4096x4x1_S4x4096x4x1_S4x4096x4x3_d3 : Shape.Concatenates [S4x4096x4x1, S4x4096x4x1, S4x4096x4x1] S4x4096x4x3 3
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  scatter_S4x4096x4096_S4x4096x4x3_S4x4096x4_n_012_012_3_wf : ScatterDims.WF S4x4096x4096 S4x4096x4x3 S4x4096x4 [] [0, 1, 2] [0, 1, 2] 3
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x4096.size a
  hwx0_0 : ∀ i : grid0.Coords, EltTy.bits .f32 = 32 ∨ (Rect.block (s := S4x128x4096) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S4x4096x4096.size a
  hwx0_1 : ∀ i : grid0.Coords, EltTy.bits .bf16 = 32 ∨ (Rect.block (s := S4x4096x4096) S1x4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x128x4096.size a
  hwx0_2 : ∀ i : grid0.Coords, EltTy.bits .f32 = 32 ∨ (Rect.block (s := S4x128x4096) S1x128x4096.size (cc0_transform_2 i) (hinb0_2 i)).WholeWords (EltTy.packing .f32)

variable [Facts₀]

def scatter_S4x4096x4096_S4x4096x4x3_S4x4096x4_n_012_012_3 : ScatterDims S4x4096x4096 S4x4096x4x3 S4x4096x4 where
  updateWindowDims := []
  insertedWindowDims := [0, 1, 2]
  scatterDimsToOperandDims := [0, 1, 2]
  indexVectorDim := 3
  wf := scatter_S4x4096x4096_S4x4096x4x3_S4x4096x4_n_012_012_3_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v98) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v99) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x4096 : Shape := ⟨3, ![4, 128, 4096]⟩
abbrev S4x64x64x2 : Shape := ⟨4, ![4, 64, 64, 2]⟩
abbrev S4x2 : Shape := ⟨2, ![4, 2]⟩
abbrev S4x4096x2 : Shape := ⟨3, ![4, 4096, 2]⟩
abbrev S4x4096x1 : Shape := ⟨3, ![4, 4096, 1]⟩
abbrev S4x4096 : Shape := ⟨2, ![4, 4096]⟩
abbrev S_ : Shape := ⟨0, ![]⟩
abbrev S4096 : Shape := ⟨1, ![4096]⟩
abbrev S4x1 : Shape := ⟨2, ![4, 1]⟩
abbrev S4 : Shape := ⟨1, ![4]⟩
abbrev S1x1x4 : Shape := ⟨3, ![1, 1, 4]⟩
abbrev S4x4096x4 : Shape := ⟨3, ![4, 4096, 4]⟩
abbrev S4x4096x2x1 : Shape := ⟨4, ![4, 4096, 2, 1]⟩
abbrev S4x4096x1x2 : Shape := ⟨4, ![4, 4096, 1, 2]⟩
abbrev S4x4096x2x2 : Shape := ⟨4, ![4, 4096, 2, 2]⟩
abbrev S4x4096x4096 : Shape := ⟨3, ![4, 4096, 4096]⟩
abbrev S4x1x1 : Shape := ⟨3, ![4, 1, 1]⟩
abbrev S1x4096x1 : Shape := ⟨3, ![1, 4096, 1]⟩
abbrev S4x4096x4x1 : Shape := ⟨4, ![4, 4096, 4, 1]⟩
abbrev S4x4096x4x3 : Shape := ⟨4, ![4, 4096, 4, 3]⟩

abbrev nBuf : Space → Nat
  | .hbm => 133
  | .vmem => 0
  | .smem => 0
  | _ => 0

abbrev hbmTy0_0 (i : Nat) : BufTy := match i % 128 with
  | 0 => ⟨S4x128x4096, .f32⟩
  | 1 => ⟨S4x64x64x2, .f32⟩
  | 2 => ⟨S4x2, .i32⟩
  | 3 => ⟨S4x4096x2, .f32⟩
  | 4 => ⟨S4x4096x1, .f32⟩
  | 5 => ⟨S4x4096, .f32⟩
  | 6 => ⟨S_, .f32⟩
  | 7 => ⟨S4x4096, .f32⟩
  | 8 => ⟨S4x4096, .i1⟩
  | 9 => ⟨S_, .i1⟩
  | 10 => ⟨S4096, .i1⟩
  | 11 => ⟨S4x4096x1, .f32⟩
  | 12 => ⟨S4x4096, .f32⟩
  | 13 => ⟨S_, .f32⟩
  | 14 => ⟨S4x4096, .f32⟩
  | 15 => ⟨S4x4096, .i1⟩
  | 16 => ⟨S_, .i1⟩
  | 17 => ⟨S4096, .i1⟩
  | 18 => ⟨S4096, .i1⟩
  | 19 => ⟨S4x4096x1, .f32⟩
  | 20 => ⟨S4x4096, .f32⟩
  | 21 => ⟨S_, .f32⟩
  | 22 => ⟨S4x4096, .f32⟩
  | 23 => ⟨S4x4096, .i1⟩
  | 24 => ⟨S_, .i1⟩
  | 25 => ⟨S4096, .i1⟩
  | 26 => ⟨S4096, .i1⟩
  | 27 => ⟨S4x4096x1, .f32⟩
  | 28 => ⟨S4x4096, .f32⟩
  | 29 => ⟨S_, .f32⟩
  | 30 => ⟨S4x4096, .f32⟩
  | 31 => ⟨S4x4096, .i1⟩
  | 32 => ⟨S_, .i1⟩
  | 33 => ⟨S4096, .i1⟩
  | 34 => ⟨S4096, .i1⟩
  | 35 => ⟨S4x4096x1, .f32⟩
  | 36 => ⟨S4x4096, .f32⟩
  | 37 => ⟨S_, .f32⟩
  | 38 => ⟨S_, .f32⟩
  | 39 => ⟨S_, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S4x4096x1, .f32⟩
  | 46 => ⟨S4x4096, .f32⟩
  | 47 => ⟨S_, .f32⟩
  | 48 => ⟨S_, .f32⟩
  | 49 => ⟨S_, .f32⟩
  | 50 => ⟨S4x4096, .f32⟩
  | 51 => ⟨S4x4096, .f32⟩
  | 52 => ⟨S_, .f32⟩
  | 53 => ⟨S4x4096, .f32⟩
  | 54 => ⟨S4x4096, .f32⟩
  | 55 => ⟨S4x4096, .f32⟩
  | 56 => ⟨S4x4096, .f32⟩
  | 57 => ⟨S4x4096, .f32⟩
  | 58 => ⟨S4x4096, .f32⟩
  | 59 => ⟨S4x4096, .i32⟩
  | 60 => ⟨S4x4096, .i32⟩
  | 61 => ⟨S4x4096x1, .i32⟩
  | 62 => ⟨S4x1, .i32⟩
  | 63 => ⟨S4, .i32⟩
  | 64 => ⟨S1x1x4, .i32⟩
  | 65 => ⟨S4x4096x4, .i32⟩
  | 66 => ⟨S4x4096x4, .i32⟩
  | 67 => ⟨S4x4096x4, .i32⟩
  | 68 => ⟨S_, .i32⟩
  | 69 => ⟨S4x4096x4, .i32⟩
  | 70 => ⟨S4x4096x4, .i32⟩
  | 71 => ⟨S4x4096x1, .i32⟩
  | 72 => ⟨S4x1, .i32⟩
  | 73 => ⟨S4, .i32⟩
  | 74 => ⟨S1x1x4, .i32⟩
  | 75 => ⟨S4x4096x4, .i32⟩
  | 76 => ⟨S4x4096x4, .i32⟩
  | 77 => ⟨S4x4096x4, .i32⟩
  | 78 => ⟨S4x4096x4, .i32⟩
  | 79 => ⟨S_, .f32⟩
  | 80 => ⟨S4x4096, .f32⟩
  | 81 => ⟨S4x4096, .f32⟩
  | 82 => ⟨S4x4096x1, .f32⟩
  | 83 => ⟨S4x4096x1, .f32⟩
  | 84 => ⟨S4x4096x2, .f32⟩
  | 85 => ⟨S4x4096x1, .f32⟩
  | 86 => ⟨S4x4096x1, .f32⟩
  | 87 => ⟨S4x4096x2, .f32⟩
  | 88 => ⟨S4x4096x2x1, .f32⟩
  | 89 => ⟨S4x4096x1x2, .f32⟩
  | 90 => ⟨S4x4096x2x2, .f32⟩
  | 91 => ⟨S4x4096x2x2, .f32⟩
  | 92 => ⟨S4x4096x2x2, .f32⟩
  | 93 => ⟨S4x4096x4, .f32⟩
  | 94 => ⟨S_, .f32⟩
  | 95 => ⟨S4x4096x4096, .f32⟩
  | 96 => ⟨S4, .i32⟩
  | 97 => ⟨S4x1x1, .i32⟩
  | 98 => ⟨S4096, .i32⟩
  | 99 => ⟨S1x4096x1, .i32⟩
  | 100 => ⟨S_, .i32⟩
  | 101 => ⟨S4x1x1, .i32⟩
  | 102 => ⟨S4x1x1, .i1⟩
  | 103 => ⟨S_, .i32⟩
  | 104 => ⟨S4x1x1, .i32⟩
  | 105 => ⟨S4x1x1, .i32⟩
  | 106 => ⟨S4x1x1, .i32⟩
  | 107 => ⟨S_, .i32⟩
  | 108 => ⟨S1x4096x1, .i32⟩
  | 109 => ⟨S1x4096x1, .i1⟩
  | 110 => ⟨S_, .i32⟩
  | 111 => ⟨S1x4096x1, .i32⟩
  | 112 => ⟨S1x4096x1, .i32⟩
  | 113 => ⟨S1x4096x1, .i32⟩
  | 114 => ⟨S_, .i32⟩
  | 115 => ⟨S4x4096x4, .i32⟩
  | 116 => ⟨S4x4096x4, .i1⟩
  | 117 => ⟨S_, .i32⟩
  | 118 => ⟨S4x4096x4, .i32⟩
  | 119 => ⟨S4x4096x4, .i32⟩
  | 120 => ⟨S4x4096x4, .i32⟩
  | 121 => ⟨S4x4096x4, .i32⟩
  | 122 => ⟨S4x4096x4, .i32⟩
  | 123 => ⟨S4x4096x4x1, .i32⟩
  | 124 => ⟨S4x4096x4x1, .i32⟩
  | 125 => ⟨S4x4096x4x1, .i32⟩
  | 126 => ⟨S4x4096x4x3, .i32⟩
  | 127 => ⟨S4x4096x4096, .f32⟩
  | _ => ⟨S4x128x4096, .f32⟩

abbrev hbmTy0_1 (i : Nat) : BufTy := match i % 128 with
  | 0 => ⟨S4096, .f32⟩
  | 1 => ⟨S1x4096x1, .f32⟩
  | 2 => ⟨S4x4096x4096, .f32⟩
  | 3 => ⟨S4x4096x4096, .f32⟩
  | 4 => ⟨S4x128x4096, .f32⟩
  | _ => ⟨S4x128x4096, .f32⟩

abbrev hbmTy (i : Nat) : BufTy := match i / 128 with
  | 0 => hbmTy0_0 i
  | 1 => hbmTy0_1 i
  | _ => ⟨S4x128x4096, .f32⟩

abbrev bufTy : (tb : Table) → Fin (tcTables nBuf tb) → BufTy
  | .hbm, ⟨i, _⟩ => hbmTy i
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  shapeCasts_S4x64x64x2_S4x4096x2 : S4x64x64x2.ShapeCasts S4x4096x2
  slices_S4x4096x2_S4x4096x1_0_0_0 : S4x4096x2.Slices ![0, 0, 0] S4x4096x1
  shapeCasts_S4x4096x1_S4x4096 : S4x4096x1.ShapeCasts S4x4096
  bcast_S_S4x4096 : S_.BroadcastsInDim S4x4096 (![] : Fin 0 → Fin S4x4096.rank)
  reducesTo_S4x4096_S4096_d0 : S4x4096.ReducesTo [0] S4096
  h_S_ : 0 < S_.numel
  slices_S4x4096x2_S4x4096x1_0_0_1 : S4x4096x2.Slices ![0, 0, 1] S4x4096x1
  bcast_S4x4096_S4x4096x1_0_1 : S4x4096.BroadcastsInDim S4x4096x1 (![0, 1] : Fin 2 → Fin S4x4096x1.rank)
  slices_S4x2_S4x1_0_0 : S4x2.Slices ![0, 0] S4x1
  shapeCasts_S4x1_S4 : S4x1.ShapeCasts S4
  bcast_S4_S1x1x4_2 : S4.BroadcastsInDim S1x1x4 (![2] : Fin 1 → Fin S1x1x4.rank)
  bcast_S4x4096x1_S4x4096x4_0_1_2 : S4x4096x1.BroadcastsInDim S4x4096x4 (![0, 1, 2] : Fin 3 → Fin S4x4096x4.rank)
  bcast_S1x1x4_S4x4096x4_0_1_2 : S1x1x4.BroadcastsInDim S4x4096x4 (![0, 1, 2] : Fin 3 → Fin S4x4096x4.rank)
  bcast_S_S4x4096x4 : S_.BroadcastsInDim S4x4096x4 (![] : Fin 0 → Fin S4x4096x4.rank)
  slices_S4x2_S4x1_0_1 : S4x2.Slices ![0, 1] S4x1
  concatenates_S4x4096x1_S4x4096x1_S4x4096x2_d2 : Shape.Concatenates [S4x4096x1, S4x4096x1] S4x4096x2 2
  bcast_S4x4096x2_S4x4096x2x1_0_1_2 : S4x4096x2.BroadcastsInDim S4x4096x2x1 (![0, 1, 2] : Fin 3 → Fin S4x4096x2x1.rank)
  bcast_S4x4096x2_S4x4096x1x2_0_1_3 : S4x4096x2.BroadcastsInDim S4x4096x1x2 (![0, 1, 3] : Fin 3 → Fin S4x4096x1x2.rank)
  bcast_S4x4096x2x1_S4x4096x2x2_0_1_2_3 : S4x4096x2x1.BroadcastsInDim S4x4096x2x2 (![0, 1, 2, 3] : Fin 4 → Fin S4x4096x2x2.rank)
  bcast_S4x4096x1x2_S4x4096x2x2_0_1_2_3 : S4x4096x1x2.BroadcastsInDim S4x4096x2x2 (![0, 1, 2, 3] : Fin 4 → Fin S4x4096x2x2.rank)
  shapeCasts_S4x4096x2x2_S4x4096x4 : S4x4096x2x2.ShapeCasts S4x4096x4
  bcast_S_S4x4096x4096 : S_.BroadcastsInDim S4x4096x4096 (![] : Fin 0 → Fin S4x4096x4096.rank)
  bcast_S4_S4x1x1_0 : S4.BroadcastsInDim S4x1x1 (![0] : Fin 1 → Fin S4x1x1.rank)
  bcast_S4096_S1x4096x1_1 : S4096.BroadcastsInDim S1x4096x1 (![1] : Fin 1 → Fin S1x4096x1.rank)
  bcast_S_S4x1x1 : S_.BroadcastsInDim S4x1x1 (![] : Fin 0 → Fin S4x1x1.rank)
  bcast_S_S1x4096x1 : S_.BroadcastsInDim S1x4096x1 (![] : Fin 0 → Fin S1x4096x1.rank)
  bcast_S4x1x1_S4x4096x4_0_1_2 : S4x1x1.BroadcastsInDim S4x4096x4 (![0, 1, 2] : Fin 3 → Fin S4x4096x4.rank)
  bcast_S1x4096x1_S4x4096x4_0_1_2 : S1x4096x1.BroadcastsInDim S4x4096x4 (![0, 1, 2] : Fin 3 → Fin S4x4096x4.rank)
  bcast_S4x4096x4_S4x4096x4x1_0_1_2 : S4x4096x4.BroadcastsInDim S4x4096x4x1 (![0, 1, 2] : Fin 3 → Fin S4x4096x4x1.rank)
  concatenates_S4x4096x4x1_S4x4096x4x1_S4x4096x4x1_S4x4096x4x3_d3 : Shape.Concatenates [S4x4096x4x1, S4x4096x4x1, S4x4096x4x1] S4x4096x4x3 3
  bcast_S1x4096x1_S4x4096x4096_0_1_2 : S1x4096x1.BroadcastsInDim S4x4096x4096 (![0, 1, 2] : Fin 3 → Fin S4x4096x4096.rank)
  scatter_S4x4096x4096_S4x4096x4x3_S4x4096x4_n_012_012_3_wf : ScatterDims.WF S4x4096x4096 S4x4096x4x3 S4x4096x4 [] [0, 1, 2] [0, 1, 2] 3
  dot_S4x128x4096_S4x4096x4096_S4x128x4096_2_2_1_1_0_0_wf : DotDims.WF S4x128x4096 S4x4096x4096 S4x128x4096 [2] [2] [1] [1] [0] [0]

variable [Facts₀]

def scatter_S4x4096x4096_S4x4096x4x3_S4x4096x4_n_012_012_3 : ScatterDims S4x4096x4096 S4x4096x4x3 S4x4096x4 where
  updateWindowDims := []
  insertedWindowDims := [0, 1, 2]
  scatterDimsToOperandDims := [0, 1, 2]
  indexVectorDim := 3
  wf := scatter_S4x4096x4096_S4x4096x4x3_S4x4096x4_n_012_012_3_wf
def dot_S4x128x4096_S4x4096x4096_S4x128x4096_2_2_1_1_0_0 : DotDims S4x128x4096 S4x4096x4096 S4x128x4096 where
  lhsContracting := [2]
  rhsContracting := [2]
  lhsNonContracting := [1]
  rhsNonContracting := [1]
  lhsBatch := [0]
  rhsBatch := [0]
  wf := dot_S4x128x4096_S4x4096x4096_S4x128x4096_2_2_1_1_0_0_wf

class Facts : Prop extends Facts₀ where

variable [Facts]
-- ==== Proof.KB.Entry.lean ====
/-
  The program up to its one kernel launch. Before the launch the host computes, from the second argument, the sparse
  matrix the kernel multiplies by; it writes neither argument. `V` is what every buffer holds when the launch is reached:
  the host operations folded over the launch contents. A window's block at a grid point is the rectangle of its array
  the index map names there.
-/
import proofs.«138733_j87840671137910_2_alg».proof.Proof.Gen.Kernel.Launch
import proofs.«138733_j87840671137910_2_alg».proof.Proof.Gen.Kernel.Skeleton
import proofs.«138733_j87840671137910_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, stretch by stretch. -/
abbrev stretches : List (List (HloOp τ sig (Elt F))) := [hostOps0, hostOps0_1, hostOps0_2, hostOps0_3, hostOps0_4]

/-- What core `c`'s buffers hold when the launch is reached. -/
abbrev V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub⟩

set_option maxHeartbeats 4000000 in
theorem stretches_fresh : (stretches (F := F)).Forall fun ops => ops.Forall fun op => op.fresh = ∅ := by
  simp only [List.Forall]; repeat' constructor

/-- The program is those stretches and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

set_option maxHeartbeats 4000000 in
/-- No host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 4000000 in
/-- No host operation writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run to the launch library's post, the two arguments end as they started: the first is a window's array that
    is only read, the second no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

end Cert.Kernel.Hand

end
-- ==== Proof.KB.Body.lean ====
/-
  The kernel's body at one grid point `(n, j)`. The output block of row-batch `n` stays in its staging buffer while `j` runs
  over the four column tiles. At `j = 0` the body first fills the block with zeros; at every `j` it then adds to the block
  the product of the point's tile of the first operand with the transposed tile of the matrix. So after the body the block
  holds `step x w a`, with `a` the zero block when `j = 0` and what the previous point left otherwise.
-/
import proofs.«138733_j87840671137910_2_alg».proof.Proof.KB.Entry
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block after the body: the carried block `a` plus the tile product of `x` and `w`. -/
abbrev step (x : Vec F S1x128x1024 .f32) (w : Vec F S1x4096x1024 .bf16) (a : Vec F S1x128x4096 .f32) : Vec F S1x128x4096 .f32 :=
  k0_pay2 x a w

/-- The zero block. -/
abbrev zeroBlk : Vec F S1x128x4096 .f32 := k0_pay1 (F := F)

/-- The body's branch condition: the column-tile coordinate is zero. -/
abbrev cond0 (i : grid0.Coords) : Prop := (Scalar.cmpi .ne (Scalar.extui (Scalar.cmpi .eq (BitVec.ofNat 32 (i 1).val) 0#32)) 0#32) = 1#1

/-- Over the sixteen points it holds exactly at the first of every four. -/
theorem hcond0 : ∀ t : Fin cfg0.N, cond0 (grid0.coords t) ↔ t.val % 4 = 0 :=
  (by decide +kernel : ∀ t : Fin grid0.N, cond0 (grid0.coords t) ↔ t.val % 4 = 0)

theorem zero3 : (![0, 0, 0] : Fin 3 → Nat) = fun _ => 0 := by
  funext a; fin_cases a <;> rfl

/-- A store through the whole block, made last, is what a read of the buffer finds, whatever was stored before. -/
theorem read_writes_whole_last {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

set_option maxHeartbeats 4000000 in
/-- The body where the column-tile coordinate is zero: whatever the output's buffer held, it ends at `step x w 0`. -/
theorem body_first (c : Dev nD) (i : grid0.Coords) (arg2 : Memref sig .tc .vmem S1x128x1024 .f32) (harg2 : arg2.IsWhole) (arg3 : Memref sig .tc .vmem S1x4096x1024 .bf16) (harg3 : arg3.IsWhole) (arg4 : Memref sig .tc .vmem S1x128x4096 .f32) (harg4 : arg4.IsWhole) (hc0 : cond0 i)
    (x0 : Vec F S1x128x1024 .f32) (w0 : Vec F S1x4096x1024 .bf16) (E : Set ℕ) (K : PUnit → sProp 𝕄) :
        iprop(owns (c : Thread nD τ) arg2 fullShare x0 ∗ owns (c : Thread nD τ) arg3 fullShare w0 ∗ (∃ d, owns (c : Thread nD τ) arg4 fullShare d)
            ∗ (iprop(owns (c : Thread nD τ) arg2 fullShare x0 ∗ owns (c : Thread nD τ) arg3 fullShare w0 ∗ owns (c : Thread nD τ) arg4 fullShare (step x0 w0 (zeroBlk (F := F)))) -∗ K ⟨⟩))
          ⊢ wp frame (wpE (defs₀ (F := F)) Variants.none c none) E (cc0__bmm_kernel i arg2 harg2 arg3 harg3 arg4 harg4) K := by
  simp only [cc0__bmm_kernel_eq_skeleton]; unfold cc0__bmm_kernel_skel
  unfold owns
  iintro ⟨⟨%f0, %hf0, H0⟩, ⟨%f1, %hf1, H1⟩, ⟨%d2, %f2, -, H2⟩, Hk⟩
  obtain rfl := harg2.eq_unread hf0
  obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [read_writes_whole_last _ _ zero3]
  sl_unfold_words
  simp only [View.readAt_eq_ld, harg2.read_unread, harg3.read_unread, View.ld_unit_zero (S := S1x128x1024) zero3,
    View.ld_unit_zero (S := S1x4096x1024) zero3,
    View.readCov_unit_zero (S := S1x128x4096) arg4.view (off := ![0, 0, 0]) zero3]

set_option maxHeartbeats 4000000 in
/-- The body at a later column tile: the output's buffer holds the carried block `a0` and ends at `step x w a0`. -/
theorem body_next (c : Dev nD) (i : grid0.Coords) (arg2 : Memref sig .tc .vmem S1x128x1024 .f32) (harg2 : arg2.IsWhole) (arg3 : Memref sig .tc .vmem S1x4096x1024 .bf16) (harg3 : arg3.IsWhole) (arg4 : Memref sig .tc .vmem S1x128x4096 .f32) (harg4 : arg4.IsWhole) (hc0 : ¬cond0 i)
    (x0 : Vec F S1x128x1024 .f32) (w0 : Vec F S1x4096x1024 .bf16) (a0 : Vec F S1x128x4096 .f32) (E : Set ℕ) (K : PUnit → sProp 𝕄) :
        iprop(owns (c : Thread nD τ) arg2 fullShare x0 ∗ owns (c : Thread nD τ) arg3 fullShare w0 ∗ owns (c : Thread nD τ) arg4 fullShare a0
            ∗ (iprop(owns (c : Thread nD τ) arg2 fullShare x0 ∗ owns (c : Thread nD τ) arg3 fullShare w0 ∗ owns (c : Thread nD τ) arg4 fullShare (step x0 w0 a0)) -∗ K ⟨⟩))
          ⊢ wp frame (wpE (defs₀ (F := F)) Variants.none c none) E (cc0__bmm_kernel i arg2 harg2 arg3 harg3 arg4 harg4) K := by
  simp only [cc0__bmm_kernel_eq_skeleton]; unfold cc0__bmm_kernel_skel
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [read_writes_whole_last _ _ zero3]
  sl_unfold_words
  simp only [View.readAt_eq_ld, harg2.read_unread, harg3.read_unread, harg4.read_unread, View.ld_unit_zero (S := S1x128x1024) zero3,
    View.ld_unit_zero (S := S1x4096x1024) zero3, View.ld_unit_zero (S := S1x128x4096) zero3]

end Cert.Kernel.Hand

end
-- ==== Proof.KB.Frame.lean ====
/-
  The run of the whole program. What the output block's staging buffer holds after the body at each grid point is given
  by recursion on the point: at the first column tile of a row-batch the body's step applied to the zero block, at a later
  one the step applied to what the point before left (the buffer is written back only after the fourth tile, so nothing
  intervenes). The two operand windows hold their blocks at every point. With this the launch library's obligation for the
  body holds at every point, the program runs to the end, and its two arguments end as they started.
-/
import proofs.«138733_j87840671137910_2_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block's staging buffer after the body at position `n`. -/
def outsAt (c : Dev nD) : (n : ℕ) → n < cfg0.N → Vec F S1x128x4096 .f32
  | 0, hn => step (iblk m c 0 ⟨0, hn⟩) (iblk m c 1 ⟨0, hn⟩) (zeroBlk (F := F))
  | n + 1, hn =>
    if (n + 1) % 4 = 0 then step (iblk m c 0 ⟨n + 1, hn⟩) (iblk m c 1 ⟨n + 1, hn⟩) (zeroBlk (F := F))
    else step (iblk m c 0 ⟨n + 1, hn⟩) (iblk m c 1 ⟨n + 1, hn⟩) (outsAt c n (Nat.lt_of_succ_lt hn))

/-- At the first column tile of a row-batch: the step from the zero block. -/
theorem outsAt_first (c : Dev nD) (t : Fin cfg0.N) (h0 : t.val % 4 = 0) :
    outsAt m c t.val t.isLt = step (iblk m c 0 t) (iblk m c 1 t) (zeroBlk (F := F)) := by
  obtain ⟨n, hn⟩ := t
  cases n with
  | zero => exact rfl
  | succ n => exact (if_pos h0).trans rfl

/-- At a later column tile: the step from what the point before left. -/
theorem outsAt_next (c : Dev nD) (t : Fin cfg0.N) (h0 : ¬t.val % 4 = 0) :
    outsAt m c t.val t.isLt = step (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The launch library's proof data on core `c`: the arrays as the launch finds them; after the body at a point the operand
    windows at their blocks and the output window at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d

/-- At a later column tile the output's buffer still holds what the body left at the point before: the buffer is written
    back only at the fourth tile of a row-batch. -/
theorem before2_next (c : Dev nD) (t : Fin cfg0.N) (h0 : ¬t.val % 4 = 0) (d) :
    (dats m 0 c).before 2 t d = (outsAt m c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the operand windows hold their blocks; at the first column tile the output's buffer may hold
    anything, at a later one it holds what the point before left; in both cases the body leaves `outsAt` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  by_cases h0 : t.val % 4 = 0
  · rw [outsAt_first m c t h0]
    iintro ⟨HΦ, Ho, ⟨%d0, H0⟩, ⟨%d1, H1⟩, ⟨%d2, H2⟩⟩
    iapply (body_first c (grid0.coords t) _ _ _ _ _ _ ((hcond0 t).mpr h0) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt_next m c t h0]
    simp only [before2_next m c t h0]
    iintro ⟨HΦ, Ho, ⟨%d0, H0⟩, ⟨%d1, H1⟩, ⟨%d2, H2⟩⟩
    iapply (body_next c (grid0.coords t) _ _ _ _ _ _ (fun h => h0 ((hcond0 t).mp h)) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The launch library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and at the end every window's array holds what the library
    computes from the proof data and every other buffer what it held when the launch was reached. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, nothing faults, and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Entry.lean ====
/-
  The program up to its one kernel launch. Before the launch the host computes, from the second argument, the sparse
  matrix the kernel multiplies by; it writes neither argument. `V` is what every buffer holds when the launch is reached:
  the host operations folded over the launch contents. A window's block at a grid point is the rectangle of its array
  the index map names there.
-/
import proofs.«138733_j87840671137910_2_alg».proof.Proof.Gen.KernelIdeal.Launch
import proofs.«138733_j87840671137910_2_alg».proof.Proof.Gen.KernelIdeal.Skeleton
import proofs.«138733_j87840671137910_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, stretch by stretch. -/
abbrev stretches : List (List (HloOp τ sig (Elt F))) := [hostOps0, hostOps0_1, hostOps0_2, hostOps0_3, hostOps0_4]

/-- What core `c`'s buffers hold when the launch is reached. -/
abbrev V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub⟩

set_option maxHeartbeats 4000000 in
theorem stretches_fresh : (stretches (F := F)).Forall fun ops => ops.Forall fun op => op.fresh = ∅ := by
  simp only [List.Forall]; repeat' constructor

/-- The program is those stretches and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh (fun c => (main_chain c).trans rfl)

set_option maxHeartbeats 4000000 in
/-- No host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

set_option maxHeartbeats 4000000 in
/-- No host operation writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run to the launch library's post, the two arguments end as they started: the first is a window's array that
    is only read, the second no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

end Cert.KernelIdeal.Hand

end
-- ==== Proof.KI.Body.lean ====
/-
  The kernel's body at one grid point `(n, j)`. The output block of row-batch `n` stays in its staging buffer while `j` runs
  over the four column tiles. At `j = 0` the body first fills the block with zeros; at every `j` it then adds to the block
  the product of the point's tile of the first operand with the transposed tile of the matrix. So after the body the block
  holds `step x w a`, with `a` the zero block when `j = 0` and what the previous point left otherwise.
-/
import proofs.«138733_j87840671137910_2_alg».proof.Proof.KI.Entry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block after the body: the carried block `a` plus the tile product of `x` and `w`. -/
abbrev step (x : Vec F S1x128x1024 .f32) (w : Vec F S1x4096x1024 .bf16) (a : Vec F S1x128x4096 .f32) : Vec F S1x128x4096 .f32 :=
  k0_pay2 x a w

/-- The zero block. -/
abbrev zeroBlk : Vec F S1x128x4096 .f32 := k0_pay1 (F := F)

/-- The body's branch condition: the column-tile coordinate is zero. -/
abbrev cond0 (i : grid0.Coords) : Prop := (Scalar.cmpi .ne (Scalar.extui (Scalar.cmpi .eq (BitVec.ofNat 32 (i 1).val) 0#32)) 0#32) = 1#1

/-- Over the sixteen points it holds exactly at the first of every four. -/
theorem hcond0 : ∀ t : Fin cfg0.N, cond0 (grid0.coords t) ↔ t.val % 4 = 0 :=
  (by decide +kernel : ∀ t : Fin grid0.N, cond0 (grid0.coords t) ↔ t.val % 4 = 0)

theorem zero3 : (![0, 0, 0] : Fin 3 → Nat) = fun _ => 0 := by
  funext a; fin_cases a <;> rfl

/-- A store through the whole block, made last, is what a read of the buffer finds, whatever was stored before. -/
theorem read_writes_whole_last {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

set_option maxHeartbeats 4000000 in
/-- The body where the column-tile coordinate is zero: whatever the output's buffer held, it ends at `step x w 0`. -/
theorem body_first (c : Dev nD) (i : grid0.Coords) (arg2 : Memref sig .tc .vmem S1x128x1024 .f32) (harg2 : arg2.IsWhole) (arg3 : Memref sig .tc .vmem S1x4096x1024 .bf16) (harg3 : arg3.IsWhole) (arg4 : Memref sig .tc .vmem S1x128x4096 .f32) (harg4 : arg4.IsWhole) (hc0 : cond0 i)
    (x0 : Vec F S1x128x1024 .f32) (w0 : Vec F S1x4096x1024 .bf16) (E : Set ℕ) (K : PUnit → sProp 𝕄) :
        iprop(owns (c : Thread nD τ) arg2 fullShare x0 ∗ owns (c : Thread nD τ) arg3 fullShare w0 ∗ (∃ d, owns (c : Thread nD τ) arg4 fullShare d)
            ∗ (iprop(owns (c : Thread nD τ) arg2 fullShare x0 ∗ owns (c : Thread nD τ) arg3 fullShare w0 ∗ owns (c : Thread nD τ) arg4 fullShare (step x0 w0 (zeroBlk (F := F)))) -∗ K ⟨⟩))
          ⊢ wp frame (wpE (defs₀ (F := F)) Variants.none c none) E (cc0__bmm_kernel i arg2 harg2 arg3 harg3 arg4 harg4) K := by
  simp only [cc0__bmm_kernel_eq_skeleton]; unfold cc0__bmm_kernel_skel
  unfold owns
  iintro ⟨⟨%f0, %hf0, H0⟩, ⟨%f1, %hf1, H1⟩, ⟨%d2, %f2, -, H2⟩, Hk⟩
  obtain rfl := harg2.eq_unread hf0
  obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [read_writes_whole_last _ _ zero3]
  sl_unfold_words
  simp only [View.readAt_eq_ld, harg2.read_unread, harg3.read_unread, View.ld_unit_zero (S := S1x128x1024) zero3,
    View.ld_unit_zero (S := S1x4096x1024) zero3,
    View.readCov_unit_zero (S := S1x128x4096) arg4.view (off := ![0, 0, 0]) zero3]

set_option maxHeartbeats 4000000 in
/-- The body at a later column tile: the output's buffer holds the carried block `a0` and ends at `step x w a0`. -/
theorem body_next (c : Dev nD) (i : grid0.Coords) (arg2 : Memref sig .tc .vmem S1x128x1024 .f32) (harg2 : arg2.IsWhole) (arg3 : Memref sig .tc .vmem S1x4096x1024 .bf16) (harg3 : arg3.IsWhole) (arg4 : Memref sig .tc .vmem S1x128x4096 .f32) (harg4 : arg4.IsWhole) (hc0 : ¬cond0 i)
    (x0 : Vec F S1x128x1024 .f32) (w0 : Vec F S1x4096x1024 .bf16) (a0 : Vec F S1x128x4096 .f32) (E : Set ℕ) (K : PUnit → sProp 𝕄) :
        iprop(owns (c : Thread nD τ) arg2 fullShare x0 ∗ owns (c : Thread nD τ) arg3 fullShare w0 ∗ owns (c : Thread nD τ) arg4 fullShare a0
            ∗ (iprop(owns (c : Thread nD τ) arg2 fullShare x0 ∗ owns (c : Thread nD τ) arg3 fullShare w0 ∗ owns (c : Thread nD τ) arg4 fullShare (step x0 w0 a0)) -∗ K ⟨⟩))
          ⊢ wp frame (wpE (defs₀ (F := F)) Variants.none c none) E (cc0__bmm_kernel i arg2 harg2 arg3 harg3 arg4 harg4) K := by
  simp only [cc0__bmm_kernel_eq_skeleton]; unfold cc0__bmm_kernel_skel
  unfold owns
  iintro ⟨⟨%f0, %hf0, H0⟩, ⟨%f1, %hf1, H1⟩, ⟨%f2, %hf2, H2⟩, Hk⟩
  obtain rfl := harg2.eq_unread hf0
  obtain rfl := harg3.eq_unread hf1
  obtain rfl := harg4.eq_unread hf2
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  rw [read_writes_whole_last _ _ zero3]
  sl_unfold_words
  simp only [View.readAt_eq_ld, harg2.read_unread, harg3.read_unread, harg4.read_unread, View.ld_unit_zero (S := S1x128x1024) zero3,
    View.ld_unit_zero (S := S1x4096x1024) zero3, View.ld_unit_zero (S := S1x128x4096) zero3]

end Cert.KernelIdeal.Hand

end
-- ==== Proof.KI.Frame.lean ====
/-
  The run of the whole program. What the output block's staging buffer holds after the body at each grid point is given
  by recursion on the point: at the first column tile of a row-batch the body's step applied to the zero block, at a later
  one the step applied to what the point before left (the buffer is written back only after the fourth tile, so nothing
  intervenes). The two operand windows hold their blocks at every point. With this the launch library's obligation for the
  body holds at every point, the program runs to the end, and its two arguments end as they started.
-/
import proofs.«138733_j87840671137910_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block's staging buffer after the body at position `n`. -/
def outsAt (c : Dev nD) : (n : ℕ) → n < cfg0.N → Vec F S1x128x4096 .f32
  | 0, hn => step (iblk m c 0 ⟨0, hn⟩) (iblk m c 1 ⟨0, hn⟩) (zeroBlk (F := F))
  | n + 1, hn =>
    if (n + 1) % 4 = 0 then step (iblk m c 0 ⟨n + 1, hn⟩) (iblk m c 1 ⟨n + 1, hn⟩) (zeroBlk (F := F))
    else step (iblk m c 0 ⟨n + 1, hn⟩) (iblk m c 1 ⟨n + 1, hn⟩) (outsAt c n (Nat.lt_of_succ_lt hn))

/-- At the first column tile of a row-batch: the step from the zero block. -/
theorem outsAt_first (c : Dev nD) (t : Fin cfg0.N) (h0 : t.val % 4 = 0) :
    outsAt m c t.val t.isLt = step (iblk m c 0 t) (iblk m c 1 t) (zeroBlk (F := F)) := by
  obtain ⟨n, hn⟩ := t
  cases n with
  | zero => exact rfl
  | succ n => exact (if_pos h0).trans rfl

/-- At a later column tile: the step from what the point before left. -/
theorem outsAt_next (c : Dev nD) (t : Fin cfg0.N) (h0 : ¬t.val % 4 = 0) :
    outsAt m c t.val t.isLt = step (iblk m c 0 t) (iblk m c 1 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The launch library's proof data on core `c`: the arrays as the launch finds them; after the body at a point the operand
    windows at their blocks and the output window at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d

/-- At a later column tile the output's buffer still holds what the body left at the point before: the buffer is written
    back only at the fourth tile of a row-batch. -/
theorem before2_next (c : Dev nD) (t : Fin cfg0.N) (h0 : ¬t.val % 4 = 0) (d) :
    (dats m 0 c).before 2 t d = (outsAt m c (t.val - 1) (Nat.lt_of_le_of_lt (Nat.sub_le _ _) t.isLt)) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the operand windows hold their blocks; at the first column tile the output's buffer may hold
    anything, at a later one it holds what the point before left; in both cases the body leaves `outsAt` at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  by_cases h0 : t.val % 4 = 0
  · rw [outsAt_first m c t h0]
    iintro ⟨HΦ, Ho, ⟨%d0, H0⟩, ⟨%d1, H1⟩, ⟨%d2, H2⟩⟩
    iapply (body_first c (grid0.coords t) _ _ _ _ _ _ ((hcond0 t).mpr h0) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt_next m c t h0]
    simp only [before2_next m c t h0]
    iintro ⟨HΦ, Ho, ⟨%d0, H0⟩, ⟨%d1, H1⟩, ⟨%d2, H2⟩⟩
    iapply (body_next c (grid0.coords t) _ _ _ _ _ _ (fun h => h0 ((hcond0 t).mp h)) (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The launch library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and at the end every window's array holds what the library
    computes from the proof data and every other buffer what it held when the launch was reached. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, nothing faults, and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.StepAt.lean ====
/-
  The kernel's accumulation step read at an index.

  One grid step of the matrix product adds to the accumulator block `a : [1, 128, 4096]` the product
  of the block `x : [1, 128, 1024]` with the transpose of the block `w : [1, 4096, 1024]` (both
  contracted over their last axis). At the extended reals the narrowing of `x` is the identity and
  the product is the plain sum, so the stored value at `(0, r, k)` is
  `a (0, r, k) + ∑ jj, x (0, r, jj) · w (0, k, jj)`. The first step stores the zero block.
-/
import proofs.«138733_j87840671137910_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.StepAt

open Cert.KernelIdeal Cert.KernelIdeal.Gen Idealize.ShloMosaic Idealize.ShloMosaic.ValueIdx
open scoped BigOperators

/-- The left operand's index at result index `(r, k)` and contraction position `l` is `(r, l)`. -/
theorem lhsIdx_at (r : Fin 128) (k : Fin 4096) (l : Fin 1024) :
    dot_S128x1024_S4096x1024_S128x4096_1_1_0_0_n_n.lhsIdx (ix2 r k)
        ((contrEquiv1 dot_S128x1024_S4096x1024_S128x4096_1_1_0_0_n_n 1024 rfl rfl).symm l)
      = ix2 r l := by
  funext b
  apply Fin.ext
  match b with
  | ⟨0, _⟩ => rfl
  | ⟨1, _⟩ => rfl

/-- The right operand's index at result index `(r, k)` and contraction position `l` is `(k, l)`:
    the right operand is read transposed. -/
theorem rhsIdx_at (r : Fin 128) (k : Fin 4096) (l : Fin 1024) :
    dot_S128x1024_S4096x1024_S128x4096_1_1_0_0_n_n.rhsIdx (ix2 r k)
        ((contrEquiv1 dot_S128x1024_S4096x1024_S128x4096_1_1_0_0_n_n 1024 rfl rfl).symm l)
      = ix2 k l := by
  funext b
  apply Fin.ext
  match b with
  | ⟨0, _⟩ => rfl
  | ⟨1, _⟩ => rfl

/-- The product of two blocks into a zero accumulator, at `(r, k)`: the sum over the contracted
    axis of the products of row `r` of the left block and row `k` of the right block. -/
theorem matmul_at (L : FVec Ideal S128x1024 .bf16) (R : FVec Ideal S4096x1024 .bf16) (r : Fin 128) (k : Fin 4096) :
    matmul (F := Ideal) dot_S128x1024_S4096x1024_S128x4096_1_1_0_0_n_n none L R
        (constant (F := Ideal) S128x4096 .f32 0x00000000#32) (ix2 r k)
      = ∑ l : Fin 1024, L (ix2 r l) * R (ix2 k l) := by
  refine (Ideal.matmul_constant_zero_apply _ none L R (ix2 r k)).trans ?_
  refine (Equiv.sum_comp (contrEquiv1 dot_S128x1024_S4096x1024_S128x4096_1_1_0_0_n_n 1024 rfl rfl).symm _).symm.trans ?_
  refine Finset.sum_congr rfl fun l _ => ?_
  rw [lhsIdx_at, rhsIdx_at]

/-- The accumulation step's stored block at `(0, r, k)`. -/
theorem step_at (x : Vec Ideal S1x128x1024 .f32) (w : Vec Ideal S1x4096x1024 .bf16) (a : Vec Ideal S1x128x4096 .f32)
    (r : Fin 128) (k : Fin 4096) :
    k0_pay2 (F := Ideal) x a w (ix3 0 r k) = a (ix3 0 r k) + ∑ jj : Fin 1024, x (ix3 0 r jj) * w (ix3 0 k jj) := by
  unfold k0_pay2
  refine (shapeCast_ab_1ab_apply _ _ (0 : Fin 1) r k).trans ?_
  refine (addf_apply _ _ _).trans ?_
  refine congrArg₂ (· + ·) (shapeCast_1ab_ab_apply a _ r k) ?_
  refine (matmul_at _ _ r k).trans ?_
  refine Finset.sum_congr rfl fun l _ => ?_
  refine congrArg₂ (· * ·) ?_ (shapeCast_1ab_ab_apply w _ k l)
  exact (truncf_apply (φ := .f32) (ψ := .bf16) _ _ _).trans (shapeCast_1ab_ab_apply x _ r l)

/-- The first step's stored block is zero everywhere. -/
theorem zero_at (r : Fin 128) (k : Fin 4096) : k0_pay1 (F := Ideal) (ix3 0 r k) = 0 := by
  unfold k0_pay1
  refine (shapeCast_ab_1ab_apply _ _ (0 : Fin 1) r k).trans ?_
  show Ideal.ofBits .f32 0x00000000#32 = 0
  exact Ideal.ofBits_zero_f32

end Cert.KernelIdeal.StepAt
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.KI.Value.lean ====
/-
  What the kernel's result array holds after the run, at the exact instance. Entry `(n, r, k)` of the result is the sum
  over all 4096 columns `l` of `x[n, r, l] · mat[n, k, l]`: the grid walks, for each row-batch `n`, the four column tiles of
  1024 columns; the block of row-batch `n` starts at zero and each tile adds its 1024 products; the block is written back
  after the fourth tile; and a sum over 4 × 1024 columns taken tile by tile is the sum over all of them (addition of
  extended reals is associative and commutative, and zero is neutral: no finiteness is needed).
-/
import proofs.«138733_j87840671137910_2_alg».proof.Proof.KI.Frame
import proofs.«138733_j87840671137910_2_alg».proof.Proof.KI.StepAt
import proofs.«138733_j87840671137910_2_alg».proof.Proof.LibMoments
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-- The products of one column tile `j`, summed: `∑ jj < 1024, X[n, r, 1024 j + jj] · M[n, k, 1024 j + jj]`. -/
def tileSum (X : S4x128x4096.Idx → EReal) (M : S4x4096x4096.Idx → EReal) (n : Fin 4) (r : Fin 128) (k : Fin 4096) (j : Fin 4) : EReal :=
  ∑ jj : Fin 1024, X (ix3 n r ⟨1024 * j.val + jj.val, Cert.LibMoments.tile_row_lt j jj⟩) * M (ix3 n k ⟨1024 * j.val + jj.val, Cert.LibMoments.tile_row_lt j jj⟩)

/-- Entry `(n, r, k)` of the product of `X` with the transposed `M`, batch by batch. -/
def prodAt (X : S4x128x4096.Idx → EReal) (M : S4x4096x4096.Idx → EReal) (n : Fin 4) (r : Fin 128) (k : Fin 4096) : EReal :=
  ∑ l : Fin 4096, X (ix3 n r l) * M (ix3 n k l)

/-- The whole result array. -/
def G (X : S4x128x4096.Idx → EReal) (M : S4x4096x4096.Idx → EReal) : S4x128x4096.Idx → EReal :=
  fun i => prodAt X M (i 0) (i 1) (i 2)

/-- The sum over all columns is the sum of the four tiles' sums, added in the order the grid visits them from zero. -/
theorem prodAt_eq_tiles (X : S4x128x4096.Idx → EReal) (M : S4x4096x4096.Idx → EReal) (n : Fin 4) (r : Fin 128) (k : Fin 4096) :
    (((0 + tileSum X M n r k 0) + tileSum X M n r k 1) + tileSum X M n r k 2) + tileSum X M n r k 3 = prodAt X M n r k := by
  unfold prodAt
  rw [show (∑ l : Fin 4096, X (ix3 n r l) * M (ix3 n k l)) = ∑ l : Fin (4 * 1024), X (ix3 n r l) * M (ix3 n k l) from rfl,
    Cert.LibMoments.sum_fin_mul 4 1024 (fun l => X (ix3 n r l) * M (ix3 n k l)), Fin.sum_univ_four, zero_add]
  rfl

/-- The printed index maps over the sixteen grid points: both operand windows sit at block `(t / 4, 0, t % 4)`, the output
    window at `(t / 4, 0, 0)`. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- Entry `(0, r, jj)` of the first operand's block at point `t` is entry `(t / 4, r, 1024 (t % 4) + jj)` of its array. -/
theorem xblk_at (c : Dev nD) (t : Fin cfg0.N) (r : Fin 128) (jj : Fin 1024) (n : Fin 4) (hn : n.val = t.val / 4)
    (l : Fin 4096) (hl : l.val = 1024 * (t.val % 4) + jj.val) :
    iblk m c 0 t (ix3 0 r jj) = (V m c main_arg0 : S4x128x4096.Idx → EReal) (ix3 n r l) := by
  show V m c main_arg0 (((cfg0.win 0).blk t).view.emb (ix3 0 r jj)) = V m c main_arg0 (ix3 n r l)
  refine congrArg _ ?_
  obtain ⟨e0, e1, e2, -⟩ := idx_facts t
  funext a; apply Fin.ext
  match a with
  | ⟨0, _⟩ => show win0_0.index t (0 : Fin 3) * 1 + 1 * (0 : Fin 1).val = n.val; rw [e0, hn]; simp
  | ⟨1, _⟩ => show win0_0.index t (1 : Fin 3) * 128 + 1 * r.val = r.val; rw [e1]; omega
  | ⟨2, _⟩ => show win0_0.index t (2 : Fin 3) * 1024 + 1 * jj.val = l.val; rw [e2, hl]; omega

/-- Entry `(0, k, jj)` of the matrix's block at point `t` is entry `(t / 4, k, 1024 (t % 4) + jj)` of the matrix. -/
theorem wblk_at (c : Dev nD) (t : Fin cfg0.N) (k : Fin 4096) (jj : Fin 1024) (n : Fin 4) (hn : n.val = t.val / 4)
    (l : Fin 4096) (hl : l.val = 1024 * (t.val % 4) + jj.val) :
    iblk m c 1 t (ix3 0 k jj) = (V m c main_v98 : S4x4096x4096.Idx → EReal) (ix3 n k l) := by
  show V m c main_v98 (((cfg0.win 1).blk t).view.emb (ix3 0 k jj)) = V m c main_v98 (ix3 n k l)
  refine congrArg _ ?_
  obtain ⟨-, -, -, e0, e1, e2, -⟩ := idx_facts t
  funext a; apply Fin.ext
  match a with
  | ⟨0, _⟩ => show win0_1.index t (0 : Fin 3) * 1 + 1 * (0 : Fin 1).val = n.val; rw [e0, hn]; simp
  | ⟨1, _⟩ => show win0_1.index t (1 : Fin 3) * 4096 + 1 * k.val = k.val; rw [e1]; omega
  | ⟨2, _⟩ => show win0_1.index t (2 : Fin 3) * 1024 + 1 * jj.val = l.val; rw [e2, hl]; omega

/-- The tile product the body adds at point `t = 4 n + j` is tile `j`'s sum for row-batch `n`. -/
theorem tile_at (c : Dev nD) (t : Fin cfg0.N) (n : Fin 4) (j : Fin 4) (ht : t.val = 4 * n.val + j.val) (r : Fin 128) (k : Fin 4096)
    (x : Vec Ideal S1x128x1024 .f32) (w : Vec Ideal S1x4096x1024 .bf16) (hx : x = iblk m c 0 t) (hw : w = iblk m c 1 t) :
    (∑ jj : Fin 1024, x (ix3 0 r jj) * w (ix3 0 k jj))
      = tileSum (V m c main_arg0) (V m c main_v98) n r k j := by
  subst hx hw
  unfold tileSum
  refine Finset.sum_congr rfl fun jj _ => ?_
  have hn : n.val = t.val / 4 := by have := j.isLt; omega
  have hj : t.val % 4 = j.val := by have := j.isLt; omega
  exact congrArg₂ (· * ·) (xblk_at m c t r jj n hn ⟨1024 * j.val + jj.val, Cert.LibMoments.tile_row_lt j jj⟩ (by rw [hj]))
    (wblk_at m c t k jj n hn ⟨1024 * j.val + jj.val, Cert.LibMoments.tile_row_lt j jj⟩ (by rw [hj]))

theorem outsAt_congr (c : Dev nD) (a b : ℕ) (h : a = b) (ha : a < cfg0.N) (hb : b < cfg0.N) : outsAt m c a ha = outsAt m c b hb := by
  subst h; rfl

/-- At the first column tile of row-batch `n` the block holds `0 + ` tile 0's sum. -/
theorem outs_first (c : Dev nD) (t : Fin cfg0.N) (n : Fin 4) (ht : t.val = 4 * n.val + (0 : Fin 4).val) (r : Fin 128) (k : Fin 4096) :
    (outsAt m c t.val t.isLt (ix3 0 r k) : EReal) = 0 + tileSum (V m c main_arg0) (V m c main_v98) n r k 0 := by
  have h0 : t.val % 4 = 0 := by simp at ht; omega
  rw [outsAt_first m c t h0]
  refine (Cert.KernelIdeal.StepAt.step_at _ _ _ r k).trans ?_
  rw [show zeroBlk (F := Ideal) (ix3 0 r k) = 0 from Cert.KernelIdeal.StepAt.zero_at r k,
    tile_at m c t n 0 ht r k (iblk m c 0 t) (iblk m c 1 t) rfl rfl]

/-- At a later column tile `j` the block holds what the point before left plus tile `j`'s sum. -/
theorem outs_next (c : Dev nD) (t : Fin cfg0.N) (n : Fin 4) (j : Fin 4) (hj : j.val ≠ 0) (ht : t.val = 4 * n.val + j.val) (r : Fin 128) (k : Fin 4096) :
    (outsAt m c t.val t.isLt (ix3 0 r k) : EReal)
      = (outsAt m c (t.val - 1) (Nat.lt_of_le_of_lt (Nat.sub_le _ _) t.isLt) (ix3 0 r k) : EReal) + tileSum (V m c main_arg0) (V m c main_v98) n r k j := by
  have h0 : ¬t.val % 4 = 0 := by have := j.isLt; omega
  rw [outsAt_next m c t h0]
  refine (Cert.KernelIdeal.StepAt.step_at _ _ _ r k).trans ?_
  rw [tile_at m c t n j ht r k (iblk m c 0 t) (iblk m c 1 t) rfl rfl]

/-- After the fourth column tile of row-batch `n` the block holds entry `(n, r, k)` of the product. -/
theorem outs_last (c : Dev nD) (t : Fin cfg0.N) (n : Fin 4) (ht : t.val = 4 * n.val + 3) (r : Fin 128) (k : Fin 4096) :
    (outsAt m c t.val t.isLt (ix3 0 r k) : EReal) = prodAt (V m c main_arg0) (V m c main_v98) n r k := by
  have hN : cfg0.N = 16 := N_0
  have hn := n.isLt
  have l2 : 4 * n.val + 2 < cfg0.N := by omega
  have l1 : 4 * n.val + 1 < cfg0.N := by omega
  have l0 : 4 * n.val + 0 < cfg0.N := by omega
  rw [outs_next m c t n 3 (by decide) (by simpa using ht) r k,
    outsAt_congr m c (t.val - 1) (4 * n.val + 2) (by omega) _ l2,
    outs_next m c ⟨4 * n.val + 2, l2⟩ n 2 (by decide) rfl r k,
    outsAt_congr m c (4 * n.val + 2 - 1) (4 * n.val + 1) (by omega) _ l1,
    outs_next m c ⟨4 * n.val + 1, l1⟩ n 1 (by decide) rfl r k,
    outsAt_congr m c (4 * n.val + 1 - 1) (4 * n.val + 0) (by omega) _ l0,
    outs_first m c ⟨4 * n.val + 0, l0⟩ n rfl r k]
  exact prodAt_eq_tiles _ _ n r k

/-- What the point after the fourth column tile writes back is its block of the product. -/
theorem flushed_eq (c : Dev nD) (t : Fin cfg0.N) (hf : (cfg0.win 2).flush t = true) :
    (dats m 0 c).flushed 2 t = ((cfg0.win 2).blk t).view.read (Elt Ideal) (G (V m c main_arg0) (V m c main_v98)) := by
  have h3 : t.val % 4 = 3 := (flush0_2 t).mp hf
  have hN : t.val < 16 := lt_of_lt_of_eq t.isLt (show cfg0.N = 16 from N_0)
  show (cfg0.win 2).cut (grid0.coords t) ((dats m 0 c).after 2 t) = _
  rw [after2]
  funext y
  obtain ⟨y0, r, k, rfl⟩ : ∃ (y0 : Fin 1) (r : Fin 128) (k : Fin 4096), y = ix3 y0 r k := ⟨y 0, y 1, y 2, eq_ix3 y⟩
  obtain rfl : y0 = 0 := Subsingleton.elim _ _
  show (outsAt m c t.val t.isLt (ix3 0 r k) : EReal) = G (V m c main_arg0) (V m c main_v98) (((cfg0.win 2).blk t).view.emb (ix3 0 r k))
  have hemb : ((cfg0.win 2).blk t).view.emb (ix3 (0 : Fin 1) r k) = (ix3 (⟨t.val / 4, by omega⟩ : Fin 4) r k : S4x128x4096.Idx) := by
    obtain ⟨-, -, -, -, -, -, e0, e1, e2⟩ := idx_facts t
    funext a; apply Fin.ext
    match a with
    | ⟨0, _⟩ => show win0_2.index t (0 : Fin 3) * 1 + 1 * (0 : Fin 1).val = t.val / 4; rw [e0]; simp
    | ⟨1, _⟩ => show win0_2.index t (1 : Fin 3) * 128 + 1 * r.val = r.val; rw [e1]; omega
    | ⟨2, _⟩ => show win0_2.index t (2 : Fin 3) * 4096 + 1 * k.val = k.val; rw [e2]; omega
  rw [hemb]
  exact outs_last m c t ⟨t.val / 4, by omega⟩ (by show t.val = 4 * (t.val / 4) + 3; omega) r k

/-- Every entry of the result array lies in the block some writing-back point covers: row-batch `n`'s block, at point `4 n + 3`. -/
theorem cover (c : Dev nD) (i : S4x128x4096.Idx) :
    ∃ t : Fin cfg0.N, (cfg0.win 2).flush t = true ∧ i ∈ ((cfg0.win 2).blk t).view.set := by
  have hi0 : (i 0).val < 4 := (i 0).isLt
  have hi1 : (i 1).val < 128 := (i 1).isLt
  have hi2 : (i 2).val < 4096 := (i 2).isLt
  obtain ⟨tc, htc⟩ : ∃ tc : Fin cfg0.N, tc.val = 4 * (i 0).val + 3 :=
    ⟨⟨4 * (i 0).val + 3, by rw [show cfg0.N = 16 from N_0]; omega⟩, rfl⟩
  refine ⟨tc, (flush0_2 tc).mpr (by rw [htc]; omega), ?_⟩
  obtain ⟨-, -, -, -, -, -, e0, e1, e2⟩ := idx_facts tc
  show i ∈ ((View.whole main_v99).slice (win0_2.rect tc)).set
  rw [View.set_slice_whole, Rect.mem_set_unit]
  intro a
  match a with
  | ⟨0, _⟩ => show win0_2.index tc (0 : Fin 3) * 1 ≤ (i 0).val ∧ (i 0).val < win0_2.index tc (0 : Fin 3) * 1 + 1; rw [e0, htc]; omega
  | ⟨1, _⟩ => show win0_2.index tc (1 : Fin 3) * 128 ≤ (i 1).val ∧ (i 1).val < win0_2.index tc (1 : Fin 3) * 128 + 128; rw [e1]; omega
  | ⟨2, _⟩ => show win0_2.index tc (2 : Fin 3) * 4096 ≤ (i 2).val ∧ (i 2).val < win0_2.index tc (2 : Fin 3) * 4096 + 4096; rw [e2]; omega

/-- The result array after the run is the product, entry by entry. -/
theorem final (c : Dev nD) : (dats m 0 c).arrAt 2 cfg0.N = G (V m c main_arg0) (V m c main_v98) :=
  (dats m 0 c).arrAt_eq_of_cover 2 (G (V m c main_arg0) (V m c main_v98)) (fun t ht => flushed_eq m c t ht) (cover c)

/-- The run, read: the result array ends at the product of the first argument with the transposed matrix the host built,
    and both arguments end unchanged. -/
theorem run : θ_run defs (onTc (τ := τ) (main (F := Ideal))) ⟨m, fun _ => 0, ρ⟩ fun r => ∀ c : Dev nD,
      r.2.mem ((c.tc : Thread nD τ).loc main_v99) = G (m ((c.tc : Thread nD τ).loc main_arg0)) (V m c main_v98)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(((h c).1 2).trans (final m c)).trans (by rw [V_main_arg0]),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.RefRun.lean ====
/- The reference program's @main as the list of its 131 host operations, in order — the two calls of the outlined
   function @clip written out at their call sites over the calls' own buffers — and its run read back: every weakly
   fair execution terminates with each buffer at the fold of the operations over the launch contents, the two
   arguments unchanged. The result buffer's value is then read through the LAST six operations only (the scatter, the
   row mask's conversion and two broadcasts, the product, the contraction): the index table, the coefficients and the
   row mask stay as the fold's values at their buffers. -/
import proofs.«138733_j87840671137910_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- @main's 131 operations, in order; @clip's six per call over the records main_call0 and main_call1. -/
abbrev ops : List (HloOp τ sig (Elt F)) :=
  ( StableHlo.nullary main_c (fun i => lit0 (S4x2.rowMajor i))
  :: StableHlo.reshape main_arg1 main_v0 rfl shapeCasts_S4x64x64x2_S4x4096x2
  :: StableHlo.unary main_v0 main_v1 ((extractStridedSlice S4x4096x1 ![0, 0, 0] · slices_S4x4096x2_S4x4096x1_0_0_0) : (⟨S4x4096x2, .f32⟩ : BufTy).Contents (Elt F) → (⟨S4x4096x1, .f32⟩ : BufTy).Contents (Elt F))
  :: StableHlo.reshape main_v1 main_v2 rfl shapeCasts_S4x4096x1_S4x4096
  :: StableHlo.nullary main_cst (constant S_ .f32 0xBA83126F#32)
  :: StableHlo.unary main_cst main_v3 (broadcastInDim S4x4096 ![] bcast_S_S4x4096 : (⟨S_, .f32⟩ : BufTy).Contents (Elt F) → (⟨S4x4096, .f32⟩ : BufTy).Contents (Elt F))
  :: StableHlo.binary main_v2 main_v3 main_v4 (cmpf .oge : (⟨S4x4096, .f32⟩ : BufTy).Contents (Elt F) → (⟨S4x4096, .f32⟩ : BufTy).Contents (Elt F) → (⟨S4x4096, .i1⟩ : BufTy).Contents (Elt F))
  :: StableHlo.nullary main_c_0 (constantI S_ 1 1#1)
  :: StableHlo.binary main_v4 main_c_0 main_v5 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F))
  :: StableHlo.unary main_v0 main_v6 ((extractStridedSlice S4x4096x1 ![0, 0, 0] · slices_S4x4096x2_S4x4096x1_0_0_0) : (⟨S4x4096x2, .f32⟩ : BufTy).Contents (Elt F) → (⟨S4x4096x1, .f32⟩ : BufTy).Contents (Elt F))
  :: StableHlo.reshape main_v6 main_v7 rfl shapeCasts_S4x4096x1_S4x4096
  :: StableHlo.nullary main_cst_1 (constant S_ .f32 0x427C0106#32)
  :: StableHlo.unary main_cst_1 main_v8 (broadcastInDim S4x4096 ![] bcast_S_S4x4096 : (⟨S_, .f32⟩ : BufTy).Contents (Elt F) → (⟨S4x4096, .f32⟩ : BufTy).Contents (Elt F))
  :: StableHlo.binary main_v7 main_v8 main_v9 (cmpf .ole : (⟨S4x4096, .f32⟩ : BufTy).Contents (Elt F) → (⟨S4x4096, .f32⟩ : BufTy).Contents (Elt F) → (⟨S4x4096, .i1⟩ : BufTy).Contents (Elt F))
  :: StableHlo.nullary main_c_2 (constantI S_ 1 1#1)
  :: StableHlo.binary main_v9 main_c_2 main_v10 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F))
  :: StableHlo.binary main_v5 main_v10 main_v11 (andi : (⟨S4096, .i1⟩ : BufTy).Contents (Elt F) → (⟨S4096, .i1⟩ : BufTy).Contents (Elt F) → (⟨S4096, .i1⟩ : BufTy).Contents (Elt F))
  :: StableHlo.unary main_v0 main_v12 ((extractStridedSlice S4x4096x1 ![0, 0, 1] · slices_S4x4096x2_S4x4096x1_0_0_1) : (⟨S4x4096x2, .f32⟩ : BufTy).Contents (Elt F) → (⟨S4x4096x1, .f32⟩ : BufTy).Contents (Elt F))
  :: StableHlo.reshape main_v12 main_v13 rfl shapeCasts_S4x4096x1_S4x4096
  :: StableHlo.nullary main_cst_3 (constant S_ .f32 0xBA83126F#32)
  :: StableHlo.unary main_cst_3 main_v14 (broadcastInDim S4x4096 ![] bcast_S_S4x4096 : (⟨S_, .f32⟩ : BufTy).Contents (Elt F) → (⟨S4x4096, .f32⟩ : BufTy).Contents (Elt F))
  :: StableHlo.binary main_v13 main_v14 main_v15 (cmpf .oge : (⟨S4x4096, .f32⟩ : BufTy).Contents (Elt F) → (⟨S4x4096, .f32⟩ : BufTy).Contents (Elt F) → (⟨S4x4096, .i1⟩ : BufTy).Contents (Elt F))
  :: StableHlo.nullary main_c_4 (constantI S_ 1 1#1)
  :: StableHlo.binary main_v15 main_c_4 main_v16 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F))
  :: StableHlo.binary main_v11 main_v16 main_v17 (andi : (⟨S4096, .i1⟩ : BufTy).Contents (Elt F) → (⟨S4096, .i1⟩ : BufTy).Contents (Elt F) → (⟨S4096, .i1⟩ : BufTy).Contents (Elt F))
  :: StableHlo.unary main_v0 main_v18 ((extractStridedSlice S4x4096x1 ![0, 0, 1] · slices_S4x4096x2_S4x4096x1_0_0_1) : (⟨S4x4096x2, .f32⟩ : BufTy).Contents (Elt F) → (⟨S4x4096x1, .f32⟩ : BufTy).Contents (Elt F))
  :: StableHlo.reshape main_v18 main_v19 rfl shapeCasts_S4x4096x1_S4x4096
  :: StableHlo.nullary main_cst_5 (constant S_ .f32 0x427C0106#32)
  :: StableHlo.unary main_cst_5 main_v20 (broadcastInDim S4x4096 ![] bcast_S_S4x4096 : (⟨S_, .f32⟩ : BufTy).Contents (Elt F) → (⟨S4x4096, .f32⟩ : BufTy).Contents (Elt F))
  :: StableHlo.binary main_v19 main_v20 main_v21 (cmpf .ole : (⟨S4x4096, .f32⟩ : BufTy).Contents (Elt F) → (⟨S4x4096, .f32⟩ : BufTy).Contents (Elt F) → (⟨S4x4096, .i1⟩ : BufTy).Contents (Elt F))
  :: StableHlo.nullary main_c_6 (constantI S_ 1 1#1)
  :: StableHlo.binary main_v21 main_c_6 main_v22 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F))
  :: StableHlo.binary main_v17 main_v22 main_v23 (andi : (⟨S4096, .i1⟩ : BufTy).Contents (Elt F) → (⟨S4096, .i1⟩ : BufTy).Contents (Elt F) → (⟨S4096, .i1⟩ : BufTy).Contents (Elt F))
  :: StableHlo.unary main_v0 main_v24 ((extractStridedSlice S4x4096x1 ![0, 0, 0] · slices_S4x4096x2_S4x4096x1_0_0_0) : (⟨S4x4096x2, .f32⟩ : BufTy).Contents (Elt F) → (⟨S4x4096x1, .f32⟩ : BufTy).Contents (Elt F))
  :: StableHlo.reshape main_v24 main_v25 rfl shapeCasts_S4x4096x1_S4x4096
  :: StableHlo.nullary main_cst_7 (constant S_ .f32 0x3A83126F#32)
  :: StableHlo.nullary main_cst_8 (constant S_ .f32 0x427BFEFA#32)
  :: StableHlo.TRef.unary (.of main_cst_7 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S4x4096, .f32⟩) (broadcastInDim S4x4096 ![] bcast_S_S4x4096)
  :: StableHlo.TRef.binary (.of main_call0_v1 : StableHlo.TRef sig ⟨S4x4096, .f32⟩) (.of main_v25 : StableHlo.TRef sig ⟨S4x4096, .f32⟩) (.of main_call0_v2 : StableHlo.TRef sig ⟨S4x4096, .f32⟩) maximumf
  :: StableHlo.TRef.unary (.of main_cst_8 : StableHlo.TRef sig ⟨S_, .f32⟩) (.of main_call0_v3 : StableHlo.TRef sig ⟨S_, .f32⟩) id
  :: StableHlo.TRef.unary (.of main_call0_v3 : StableHlo.TRef sig ⟨S_, .f32⟩) (.of main_call0_v4 : StableHlo.TRef sig ⟨S4x4096, .f32⟩) (broadcastInDim S4x4096 ![] bcast_S_S4x4096)
  :: StableHlo.TRef.binary (.of main_call0_v4 : StableHlo.TRef sig ⟨S4x4096, .f32⟩) (.of main_call0_v2 : StableHlo.TRef sig ⟨S4x4096, .f32⟩) (.of main_v26 : StableHlo.TRef sig ⟨S4x4096, .f32⟩) minimumf
  :: StableHlo.unary main_v0 main_v27 ((extractStridedSlice S4x4096x1 ![0, 0, 1] · slices_S4x4096x2_S4x4096x1_0_0_1) : (⟨S4x4096x2, .f32⟩ : BufTy).Contents (Elt F) → (⟨S4x4096x1, .f32⟩ : BufTy).Contents (Elt F))
  :: StableHlo.reshape main_v27 main_v28 rfl shapeCasts_S4x4096x1_S4x4096
  :: StableHlo.nullary main_cst_9 (constant S_ .f32 0x3A83126F#32)
  :: StableHlo.nullary main_cst_10 (constant S_ .f32 0x427BFEFA#32)
  :: StableHlo.TRef.unary (.of main_cst_9 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S4x4096, .f32⟩) (broadcastInDim S4x4096 ![] bcast_S_S4x4096)
  :: StableHlo.TRef.binary (.of main_call1_v1 : StableHlo.TRef sig ⟨S4x4096, .f32⟩) (.of main_v28 : StableHlo.TRef sig ⟨S4x4096, .f32⟩) (.of main_call1_v2 : StableHlo.TRef sig ⟨S4x4096, .f32⟩) maximumf
  :: StableHlo.TRef.unary (.of main_cst_10 : StableHlo.TRef sig ⟨S_, .f32⟩) (.of main_call1_v3 : StableHlo.TRef sig ⟨S_, .f32⟩) id
  :: StableHlo.TRef.unary (.of main_call1_v3 : StableHlo.TRef sig ⟨S_, .f32⟩) (.of main_call1_v4 : StableHlo.TRef sig ⟨S4x4096, .f32⟩) (broadcastInDim S4x4096 ![] bcast_S_S4x4096)
  :: StableHlo.TRef.binary (.of main_call1_v4 : StableHlo.TRef sig ⟨S4x4096, .f32⟩) (.of main_call1_v2 : StableHlo.TRef sig ⟨S4x4096, .f32⟩) (.of main_v29 : StableHlo.TRef sig ⟨S4x4096, .f32⟩) minimumf
  :: StableHlo.unary main_v26 main_v30 (Host.floor : (⟨S4x4096, .f32⟩ : BufTy).Contents (Elt F) → (⟨S4x4096, .f32⟩ : BufTy).Contents (Elt F))
  :: StableHlo.unary main_v29 main_v31 (Host.floor : (⟨S4x4096, .f32⟩ : BufTy).Contents (Elt F) → (⟨S4x4096, .f32⟩ : BufTy).Contents (Elt F))
  :: StableHlo.binary main_v26 main_v30 main_v32 (subf : (⟨S4x4096, .f32⟩ : BufTy).Contents (Elt F) → (⟨S4x4096, .f32⟩ : BufTy).Contents (Elt F) → (⟨S4x4096, .f32⟩ : BufTy).Contents (Elt F))
  :: StableHlo.binary main_v29 main_v31 main_v33 (subf : (⟨S4x4096, .f32⟩ : BufTy).Contents (Elt F) → (⟨S4x4096, .f32⟩ : BufTy).Contents (Elt F) → (⟨S4x4096, .f32⟩ : BufTy).Contents (Elt F))
  :: StableHlo.unary main_v30 main_v34 (fptosi 32 : (⟨S4x4096, .f32⟩ : BufTy).Contents (Elt F) → (⟨S4x4096, .i32⟩ : BufTy).Contents (Elt F))
  :: StableHlo.unary main_v31 main_v35 (fptosi 32 : (⟨S4x4096, .f32⟩ : BufTy).Contents (Elt F) → (⟨S4x4096, .i32⟩ : BufTy).Contents (Elt F))
  :: StableHlo.unary main_v34 main_v36 (broadcastInDim S4x4096x1 ![0, 1] bcast_S4x4096_S4x4096x1_0_1 : (⟨S4x4096, .i32⟩ : BufTy).Contents (Elt F) → (⟨S4x4096x1, .i32⟩ : BufTy).Contents (Elt F))
  :: StableHlo.unary main_c main_v37 ((extractStridedSlice S4x1 ![0, 0] · slices_S4x2_S4x1_0_0) : (⟨S4x2, .i32⟩ : BufTy).Contents (Elt F) → (⟨S4x1, .i32⟩ : BufTy).Contents (Elt F))
  :: StableHlo.reshape main_v37 main_v38 rfl shapeCasts_S4x1_S4
  :: StableHlo.unary main_v38 main_v39 (broadcastInDim S1x1x4 ![2] bcast_S4_S1x1x4_2 : (⟨S4, .i32⟩ : BufTy).Contents (Elt F) → (⟨S1x1x4, .i32⟩ : BufTy).Contents (Elt F))
  :: StableHlo.unary main_v36 main_v40 (broadcastInDim S4x4096x4 ![0, 1, 2] bcast_S4x4096x1_S4x4096x4_0_1_2 : (⟨S4x4096x1, .i32⟩ : BufTy).Contents (Elt F) → (⟨S4x4096x4, .i32⟩ : BufTy).Contents (Elt F))
  :: StableHlo.unary main_v39 main_v41 (broadcastInDim S4x4096x4 ![0, 1, 2] bcast_S1x1x4_S4x4096x4_0_1_2 : (⟨S1x1x4, .i32⟩ : BufTy).Contents (Elt F) → (⟨S4x4096x4, .i32⟩ : BufTy).Contents (Elt F))
  :: StableHlo.binary main_v40 main_v41 main_v42 (addi : (⟨S4x4096x4, .i32⟩ : BufTy).Contents (Elt F) → (⟨S4x4096x4, .i32⟩ : BufTy).Contents (Elt F) → (⟨S4x4096x4, .i32⟩ : BufTy).Contents (Elt F))
  :: StableHlo.nullary main_c_11 (constantI S_ 32 64#32)
  :: StableHlo.unary main_c_11 main_v43 (broadcastInDim S4x4096x4 ![] bcast_S_S4x4096x4 : (⟨S_, .i32⟩ : BufTy).Contents (Elt F) → (⟨S4x4096x4, .i32⟩ : BufTy).Contents (Elt F))
  :: StableHlo.binary main_v42 main_v43 main_v44 (muli : (⟨S4x4096x4, .i32⟩ : BufTy).Contents (Elt F) → (⟨S4x4096x4, .i32⟩ : BufTy).Contents (Elt F) → (⟨S4x4096x4, .i32⟩ : BufTy).Contents (Elt F))
  :: StableHlo.unary main_v35 main_v45 (broadcastInDim S4x4096x1 ![0, 1] bcast_S4x4096_S4x4096x1_0_1 : (⟨S4x4096, .i32⟩ : BufTy).Contents (Elt F) → (⟨S4x4096x1, .i32⟩ : BufTy).Contents (Elt F))
  :: StableHlo.unary main_c main_v46 ((extractStridedSlice S4x1 ![0, 1] · slices_S4x2_S4x1_0_1) : (⟨S4x2, .i32⟩ : BufTy).Contents (Elt F) → (⟨S4x1, .i32⟩ : BufTy).Contents (Elt F))
  :: StableHlo.reshape main_v46 main_v47 rfl shapeCasts_S4x1_S4
  :: StableHlo.unary main_v47 main_v48 (broadcastInDim S1x1x4 ![2] bcast_S4_S1x1x4_2 : (⟨S4, .i32⟩ : BufTy).Contents (Elt F) → (⟨S1x1x4, .i32⟩ : BufTy).Contents (Elt F))
  :: StableHlo.unary main_v45 main_v49 (broadcastInDim S4x4096x4 ![0, 1, 2] bcast_S4x4096x1_S4x4096x4_0_1_2 : (⟨S4x4096x1, .i32⟩ : BufTy).Contents (Elt F) → (⟨S4x4096x4, .i32⟩ : BufTy).Contents (Elt F))
  :: StableHlo.unary main_v48 main_v50 (broadcastInDim S4x4096x4 ![0, 1, 2] bcast_S1x1x4_S4x4096x4_0_1_2 : (⟨S1x1x4, .i32⟩ : BufTy).Contents (Elt F) → (⟨S4x4096x4, .i32⟩ : BufTy).Contents (Elt F))
  :: StableHlo.binary main_v49 main_v50 main_v51 (addi : (⟨S4x4096x4, .i32⟩ : BufTy).Contents (Elt F) → (⟨S4x4096x4, .i32⟩ : BufTy).Contents (Elt F) → (⟨S4x4096x4, .i32⟩ : BufTy).Contents (Elt F))
  :: StableHlo.binary main_v44 main_v51 main_v52 (addi : (⟨S4x4096x4, .i32⟩ : BufTy).Contents (Elt F) → (⟨S4x4096x4, .i32⟩ : BufTy).Contents (Elt F) → (⟨S4x4096x4, .i32⟩ : BufTy).Contents (Elt F))
  :: StableHlo.nullary main_cst_12 (constant S_ .f32 0x3F800000#32)
  :: StableHlo.unary main_cst_12 main_v53 (broadcastInDim S4x4096 ![] bcast_S_S4x4096 : (⟨S_, .f32⟩ : BufTy).Contents (Elt F) → (⟨S4x4096, .f32⟩ : BufTy).Contents (Elt F))
  :: StableHlo.binary main_v53 main_v32 main_v54 (subf : (⟨S4x4096, .f32⟩ : BufTy).Contents (Elt F) → (⟨S4x4096, .f32⟩ : BufTy).Contents (Elt F) → (⟨S4x4096, .f32⟩ : BufTy).Contents (Elt F))
  :: StableHlo.unary main_v54 main_v55 (broadcastInDim S4x4096x1 ![0, 1] bcast_S4x4096_S4x4096x1_0_1 : (⟨S4x4096, .f32⟩ : BufTy).Contents (Elt F) → (⟨S4x4096x1, .f32⟩ : BufTy).Contents (Elt F))
  :: StableHlo.unary main_v32 main_v56 (broadcastInDim S4x4096x1 ![0, 1] bcast_S4x4096_S4x4096x1_0_1 : (⟨S4x4096, .f32⟩ : BufTy).Contents (Elt F) → (⟨S4x4096x1, .f32⟩ : BufTy).Contents (Elt F))
  :: StableHlo.binary main_v55 main_v56 main_v57 ((fun a b => concatenate S4x4096x2 2 [⟨S4x4096x1, a⟩, ⟨S4x4096x1, b⟩] concatenates_S4x4096x1_S4x4096x1_S4x4096x2_d2) : (⟨S4x4096x1, .f32⟩ : BufTy).Contents (Elt F) → (⟨S4x4096x1, .f32⟩ : BufTy).Contents (Elt F) → (⟨S4x4096x2, .f32⟩ : BufTy).Contents (Elt F))
  :: StableHlo.unary main_v32 main_v58 (broadcastInDim S4x4096x1 ![0, 1] bcast_S4x4096_S4x4096x1_0_1 : (⟨S4x4096, .f32⟩ : BufTy).Contents (Elt F) → (⟨S4x4096x1, .f32⟩ : BufTy).Contents (Elt F))
  :: StableHlo.unary main_v33 main_v59 (broadcastInDim S4x4096x1 ![0, 1] bcast_S4x4096_S4x4096x1_0_1 : (⟨S4x4096, .f32⟩ : BufTy).Contents (Elt F) → (⟨S4x4096x1, .f32⟩ : BufTy).Contents (Elt F))
  :: StableHlo.binary main_v58 main_v59 main_v60 ((fun a b => concatenate S4x4096x2 2 [⟨S4x4096x1, a⟩, ⟨S4x4096x1, b⟩] concatenates_S4x4096x1_S4x4096x1_S4x4096x2_d2) : (⟨S4x4096x1, .f32⟩ : BufTy).Contents (Elt F) → (⟨S4x4096x1, .f32⟩ : BufTy).Contents (Elt F) → (⟨S4x4096x2, .f32⟩ : BufTy).Contents (Elt F))
  :: StableHlo.unary main_v57 main_v61 (broadcastInDim S4x4096x2x1 ![0, 1, 2] bcast_S4x4096x2_S4x4096x2x1_0_1_2 : (⟨S4x4096x2, .f32⟩ : BufTy).Contents (Elt F) → (⟨S4x4096x2x1, .f32⟩ : BufTy).Contents (Elt F))
  :: StableHlo.unary main_v60 main_v62 (broadcastInDim S4x4096x1x2 ![0, 1, 3] bcast_S4x4096x2_S4x4096x1x2_0_1_3 : (⟨S4x4096x2, .f32⟩ : BufTy).Contents (Elt F) → (⟨S4x4096x1x2, .f32⟩ : BufTy).Contents (Elt F))
  :: StableHlo.unary main_v61 main_v63 (broadcastInDim S4x4096x2x2 ![0, 1, 2, 3] bcast_S4x4096x2x1_S4x4096x2x2_0_1_2_3 : (⟨S4x4096x2x1, .f32⟩ : BufTy).Contents (Elt F) → (⟨S4x4096x2x2, .f32⟩ : BufTy).Contents (Elt F))
  :: StableHlo.unary main_v62 main_v64 (broadcastInDim S4x4096x2x2 ![0, 1, 2, 3] bcast_S4x4096x1x2_S4x4096x2x2_0_1_2_3 : (⟨S4x4096x1x2, .f32⟩ : BufTy).Contents (Elt F) → (⟨S4x4096x2x2, .f32⟩ : BufTy).Contents (Elt F))
  :: StableHlo.binary main_v63 main_v64 main_v65 (mulf : (⟨S4x4096x2x2, .f32⟩ : BufTy).Contents (Elt F) → (⟨S4x4096x2x2, .f32⟩ : BufTy).Contents (Elt F) → (⟨S4x4096x2x2, .f32⟩ : BufTy).Contents (Elt F))
  :: StableHlo.reshape main_v65 main_v66 rfl shapeCasts_S4x4096x2x2_S4x4096x4
  :: StableHlo.nullary main_cst_13 (constant S_ .f32 0x00000000#32)
  :: StableHlo.unary main_cst_13 main_v67 (broadcastInDim S4x4096x4096 ![] bcast_S_S4x4096x4096 : (⟨S_, .f32⟩ : BufTy).Contents (Elt F) → (⟨S4x4096x4096, .f32⟩ : BufTy).Contents (Elt F))
  :: StableHlo.nullary main_v68 (iotaInDim S4 32 0)
  :: StableHlo.unary main_v68 main_v69 (broadcastInDim S4x1x1 ![0] bcast_S4_S4x1x1_0 : (⟨S4, .i32⟩ : BufTy).Contents (Elt F) → (⟨S4x1x1, .i32⟩ : BufTy).Contents (Elt F))
  :: StableHlo.nullary main_v70 (iotaInDim S4096 32 0)
  :: StableHlo.unary main_v70 main_v71 (broadcastInDim S1x4096x1 ![1] bcast_S4096_S1x4096x1_1 : (⟨S4096, .i32⟩ : BufTy).Contents (Elt F) → (⟨S1x4096x1, .i32⟩ : BufTy).Contents (Elt F))
  :: StableHlo.nullary main_c_14 (constantI S_ 32 0#32)
  :: StableHlo.unary main_c_14 main_v72 (broadcastInDim S4x1x1 ![] bcast_S_S4x1x1 : (⟨S_, .i32⟩ : BufTy).Contents (Elt F) → (⟨S4x1x1, .i32⟩ : BufTy).Contents (Elt F))
  :: StableHlo.binary main_v69 main_v72 main_v73 (cmpi .slt : (⟨S4x1x1, .i32⟩ : BufTy).Contents (Elt F) → (⟨S4x1x1, .i32⟩ : BufTy).Contents (Elt F) → (⟨S4x1x1, .i1⟩ : BufTy).Contents (Elt F))
  :: StableHlo.nullary main_c_15 (constantI S_ 32 4#32)
  :: StableHlo.unary main_c_15 main_v74 (broadcastInDim S4x1x1 ![] bcast_S_S4x1x1 : (⟨S_, .i32⟩ : BufTy).Contents (Elt F) → (⟨S4x1x1, .i32⟩ : BufTy).Contents (Elt F))
  :: StableHlo.binary main_v69 main_v74 main_v75 (addi : (⟨S4x1x1, .i32⟩ : BufTy).Contents (Elt F) → (⟨S4x1x1, .i32⟩ : BufTy).Contents (Elt F) → (⟨S4x1x1, .i32⟩ : BufTy).Contents (Elt F))
  :: StableHlo.ternary main_v73 main_v75 main_v69 main_v76 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: StableHlo.nullary main_c_16 (constantI S_ 32 0#32)
  :: StableHlo.unary main_c_16 main_v77 (broadcastInDim S1x4096x1 ![] bcast_S_S1x4096x1 : (⟨S_, .i32⟩ : BufTy).Contents (Elt F) → (⟨S1x4096x1, .i32⟩ : BufTy).Contents (Elt F))
  :: StableHlo.binary main_v71 main_v77 main_v78 (cmpi .slt : (⟨S1x4096x1, .i32⟩ : BufTy).Contents (Elt F) → (⟨S1x4096x1, .i32⟩ : BufTy).Contents (Elt F) → (⟨S1x4096x1, .i1⟩ : BufTy).Contents (Elt F))
  :: StableHlo.nullary main_c_17 (constantI S_ 32 4096#32)
  :: StableHlo.unary main_c_17 main_v79 (broadcastInDim S1x4096x1 ![] bcast_S_S1x4096x1 : (⟨S_, .i32⟩ : BufTy).Contents (Elt F) → (⟨S1x4096x1, .i32⟩ : BufTy).Contents (Elt F))
  :: StableHlo.binary main_v71 main_v79 main_v80 (addi : (⟨S1x4096x1, .i32⟩ : BufTy).Contents (Elt F) → (⟨S1x4096x1, .i32⟩ : BufTy).Contents (Elt F) → (⟨S1x4096x1, .i32⟩ : BufTy).Contents (Elt F))
  :: StableHlo.ternary main_v78 main_v80 main_v71 main_v81 (select : (⟨S1x4096x1, .i1⟩ : BufTy).Contents (Elt F) → (⟨S1x4096x1, .i32⟩ : BufTy).Contents (Elt F) → (⟨S1x4096x1, .i32⟩ : BufTy).Contents (Elt F) → (⟨S1x4096x1, .i32⟩ : BufTy).Contents (Elt F))
  :: StableHlo.nullary main_c_18 (constantI S_ 32 0#32)
  :: StableHlo.unary main_c_18 main_v82 (broadcastInDim S4x4096x4 ![] bcast_S_S4x4096x4 : (⟨S_, .i32⟩ : BufTy).Contents (Elt F) → (⟨S4x4096x4, .i32⟩ : BufTy).Contents (Elt F))
  :: StableHlo.binary main_v52 main_v82 main_v83 (cmpi .slt : (⟨S4x4096x4, .i32⟩ : BufTy).Contents (Elt F) → (⟨S4x4096x4, .i32⟩ : BufTy).Contents (Elt F) → (⟨S4x4096x4, .i1⟩ : BufTy).Contents (Elt F))
  :: StableHlo.nullary main_c_19 (constantI S_ 32 4096#32)
  :: StableHlo.unary main_c_19 main_v84 (broadcastInDim S4x4096x4 ![] bcast_S_S4x4096x4 : (⟨S_, .i32⟩ : BufTy).Contents (Elt F) → (⟨S4x4096x4, .i32⟩ : BufTy).Contents (Elt F))
  :: StableHlo.binary main_v52 main_v84 main_v85 (addi : (⟨S4x4096x4, .i32⟩ : BufTy).Contents (Elt F) → (⟨S4x4096x4, .i32⟩ : BufTy).Contents (Elt F) → (⟨S4x4096x4, .i32⟩ : BufTy).Contents (Elt F))
  :: StableHlo.ternary main_v83 main_v85 main_v52 main_v86 (select : (⟨S4x4096x4, .i1⟩ : BufTy).Contents (Elt F) → (⟨S4x4096x4, .i32⟩ : BufTy).Contents (Elt F) → (⟨S4x4096x4, .i32⟩ : BufTy).Contents (Elt F) → (⟨S4x4096x4, .i32⟩ : BufTy).Contents (Elt F))
  :: StableHlo.unary main_v76 main_v87 (broadcastInDim S4x4096x4 ![0, 1, 2] bcast_S4x1x1_S4x4096x4_0_1_2 : (⟨S4x1x1, .i32⟩ : BufTy).Contents (Elt F) → (⟨S4x4096x4, .i32⟩ : BufTy).Contents (Elt F))
  :: StableHlo.unary main_v81 main_v88 (broadcastInDim S4x4096x4 ![0, 1, 2] bcast_S1x4096x1_S4x4096x4_0_1_2 : (⟨S1x4096x1, .i32⟩ : BufTy).Contents (Elt F) → (⟨S4x4096x4, .i32⟩ : BufTy).Contents (Elt F))
  :: StableHlo.unary main_v87 main_v89 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F))
  :: StableHlo.unary main_v88 main_v90 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F))
  :: StableHlo.unary main_v86 main_v91 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F))
  :: StableHlo.nary ![main_v89, main_v90, main_v91] main_v92 (fun u => concatenate S4x4096x4x3 3 [⟨S4x4096x4x1, u 0⟩, ⟨S4x4096x4x1, u 1⟩, ⟨S4x4096x4x1, u 2⟩] concatenates_S4x4096x4x1_S4x4096x4x1_S4x4096x4x1_S4x4096x4x3_d3)
  :: StableHlo.ternary main_v67 main_v92 main_v66 main_v93 ((fun x i u => Host.scatter scatter_S4x4096x4096_S4x4096x4x3_S4x4096x4_n_012_012_3 (fun _ b => b) x i u) : (⟨S4x4096x4096, .f32⟩ : BufTy).Contents (Elt F) → (⟨S4x4096x4x3, .i32⟩ : BufTy).Contents (Elt F) → (⟨S4x4096x4, .f32⟩ : BufTy).Contents (Elt F) → (⟨S4x4096x4096, .f32⟩ : BufTy).Contents (Elt F))
  :: StableHlo.unary main_v23 main_v94 (uitofp .f32 : (⟨S4096, .i1⟩ : BufTy).Contents (Elt F) → (⟨S4096, .f32⟩ : BufTy).Contents (Elt F))
  :: StableHlo.unary main_v94 main_v95 (broadcastInDim S1x4096x1 ![1] bcast_S4096_S1x4096x1_1 : (⟨S4096, .f32⟩ : BufTy).Contents (Elt F) → (⟨S1x4096x1, .f32⟩ : BufTy).Contents (Elt F))
  :: StableHlo.unary main_v95 main_v96 (broadcastInDim S4x4096x4096 ![0, 1, 2] bcast_S1x4096x1_S4x4096x4096_0_1_2 : (⟨S1x4096x1, .f32⟩ : BufTy).Contents (Elt F) → (⟨S4x4096x4096, .f32⟩ : BufTy).Contents (Elt F))
  :: StableHlo.binary main_v93 main_v96 main_v97 (mulf : (⟨S4x4096x4096, .f32⟩ : BufTy).Contents (Elt F) → (⟨S4x4096x4096, .f32⟩ : BufTy).Contents (Elt F) → (⟨S4x4096x4096, .f32⟩ : BufTy).Contents (Elt F))
  :: StableHlo.binary main_arg0 main_v97 main_v98 ((fun l r => Host.dotGeneral dot_S4x128x4096_S4x4096x4096_S4x128x4096_2_2_1_1_0_0 none l r) : (⟨S4x128x4096, .f32⟩ : BufTy).Contents (Elt F) → (⟨S4x4096x4096, .f32⟩ : BufTy).Contents (Elt F) → (⟨S4x128x4096, .f32⟩ : BufTy).Contents (Elt F))
  :: [] )

/-- The last six of them: the scatter into the zero matrix, the row mask converted and broadcast twice, the product
    with the mask, the contraction with the first argument. -/
abbrev tailOps : List (HloOp τ sig (Elt F)) :=
  ( StableHlo.ternary main_v67 main_v92 main_v66 main_v93 ((fun x i u => Host.scatter scatter_S4x4096x4096_S4x4096x4x3_S4x4096x4_n_012_012_3 (fun _ b => b) x i u) : (⟨S4x4096x4096, .f32⟩ : BufTy).Contents (Elt F) → (⟨S4x4096x4x3, .i32⟩ : BufTy).Contents (Elt F) → (⟨S4x4096x4, .f32⟩ : BufTy).Contents (Elt F) → (⟨S4x4096x4096, .f32⟩ : BufTy).Contents (Elt F))
  :: StableHlo.unary main_v23 main_v94 (uitofp .f32 : (⟨S4096, .i1⟩ : BufTy).Contents (Elt F) → (⟨S4096, .f32⟩ : BufTy).Contents (Elt F))
  :: StableHlo.unary main_v94 main_v95 (broadcastInDim S1x4096x1 ![1] bcast_S4096_S1x4096x1_1 : (⟨S4096, .f32⟩ : BufTy).Contents (Elt F) → (⟨S1x4096x1, .f32⟩ : BufTy).Contents (Elt F))
  :: StableHlo.unary main_v95 main_v96 (broadcastInDim S4x4096x4096 ![0, 1, 2] bcast_S1x4096x1_S4x4096x4096_0_1_2 : (⟨S1x4096x1, .f32⟩ : BufTy).Contents (Elt F) → (⟨S4x4096x4096, .f32⟩ : BufTy).Contents (Elt F))
  :: StableHlo.binary main_v93 main_v96 main_v97 (mulf : (⟨S4x4096x4096, .f32⟩ : BufTy).Contents (Elt F) → (⟨S4x4096x4096, .f32⟩ : BufTy).Contents (Elt F) → (⟨S4x4096x4096, .f32⟩ : BufTy).Contents (Elt F))
  :: StableHlo.binary main_arg0 main_v97 main_v98 ((fun l r => Host.dotGeneral dot_S4x128x4096_S4x4096x4096_S4x128x4096_2_2_1_1_0_0 none l r) : (⟨S4x128x4096, .f32⟩ : BufTy).Contents (Elt F) → (⟨S4x4096x4096, .f32⟩ : BufTy).Contents (Elt F) → (⟨S4x128x4096, .f32⟩ : BufTy).Contents (Elt F))
  :: [] )

set_option maxRecDepth 8192 in
set_option maxHeartbeats 4000000 in
/-- @main is that straight line: its three windows and the two calls unfold, and sequencing reassociates by
    computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation touches TensorCore references only. -/
theorem ops_sub : (ops : List (HloOp τ sig (Elt F))).Forall fun op => op.bufs ⊆ tcRefs τ sig :=
  ⟨nullary_bufs_sub .., reshape_bufs_sub .., unary_bufs_sub .., reshape_bufs_sub .., nullary_bufs_sub .., unary_bufs_sub ..,
    binary_bufs_sub .., nullary_bufs_sub .., binary_bufs_sub .., unary_bufs_sub .., reshape_bufs_sub .., nullary_bufs_sub ..,
    unary_bufs_sub .., binary_bufs_sub .., nullary_bufs_sub .., binary_bufs_sub .., binary_bufs_sub .., unary_bufs_sub ..,
    reshape_bufs_sub .., nullary_bufs_sub .., unary_bufs_sub .., binary_bufs_sub .., nullary_bufs_sub .., binary_bufs_sub ..,
    binary_bufs_sub .., unary_bufs_sub .., reshape_bufs_sub .., nullary_bufs_sub .., unary_bufs_sub .., binary_bufs_sub ..,
    nullary_bufs_sub .., binary_bufs_sub .., binary_bufs_sub .., unary_bufs_sub .., reshape_bufs_sub .., nullary_bufs_sub ..,
    nullary_bufs_sub .., unary_bufs_sub .., unary_bufs_sub .., binary_bufs_sub .., unary_bufs_sub .., unary_bufs_sub ..,
    binary_bufs_sub .., unary_bufs_sub .., reshape_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., unary_bufs_sub ..,
    unary_bufs_sub .., reshape_bufs_sub .., unary_bufs_sub .., unary_bufs_sub .., unary_bufs_sub .., binary_bufs_sub ..,
    nullary_bufs_sub .., unary_bufs_sub .., binary_bufs_sub .., unary_bufs_sub .., unary_bufs_sub .., reshape_bufs_sub ..,
    unary_bufs_sub .., unary_bufs_sub .., unary_bufs_sub .., binary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., unary_bufs_sub .., unary_bufs_sub ..,
    binary_bufs_sub .., reshape_bufs_sub .., nullary_bufs_sub .., unary_bufs_sub .., nullary_bufs_sub .., unary_bufs_sub ..,
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., unary_bufs_sub .., unary_bufs_sub .., nary_bufs_sub .., ternary_bufs_sub ..,
    unary_bufs_sub .., unary_bufs_sub .., unary_bufs_sub .., binary_bufs_sub .., binary_bufs_sub ..⟩

set_option maxRecDepth 8192 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes the second argument's buffer. -/
theorem arg1_eq (V : Valuation τ sig (Elt F)) :
    after ops V (main_arg1 : DevRef τ sig) = V (main_arg1 : DevRef τ sig) := by
  after_results_simp

set_option maxRecDepth 8192 in
set_option maxHeartbeats 4000000 in
/-- The matrix the scatter writes into is the zero constant broadcast, whatever the launch contents. -/
theorem v67_eq (V : Valuation τ sig (Elt F)) :
    after ops V (main_v67 : DevRef τ sig)
      = broadcastInDim S4x4096x4096 ![] bcast_S_S4x4096x4096 (constant S_ .f32 0x00000000#32) := by
  after_results_simp

set_option maxRecDepth 8192 in
set_option maxHeartbeats 4000000 in
/-- On every device, for any float values, from any memory with zero counters: every weakly fair execution of @main
    terminates with the result buffer at the fold of the operations over the launch contents and the two arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = after ops (launchContents m c) (main_v98 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v98, (h c main_arg0).trans (arg0_eq _), (h c main_arg1).trans (arg1_eq _)⟩)
    (run_seq scopedRefs_eq scopedSems_eq defs main (fun _ => ops) main_eq (fun _ => ops_sub) m ρ)

/-- The fold over two lists run one after the other is the fold over their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- The last six operations are the list's tail past the first 125. -/
theorem drop_eq : (ops : List (HloOp τ sig (Elt F))).drop 125 = tailOps := rfl

/-- The fold splits there: the first 125 operations, then the last six. -/
theorem after_split (V : Valuation τ sig (Elt F)) :
    after ops V = after tailOps (after ((ops : List (HloOp τ sig (Elt F))).take 125) V) := by
  rw [← after_append, ← drop_eq, List.take_append_drop]

set_option maxRecDepth 8192 in
set_option maxHeartbeats 4000000 in
/-- The result buffer through the last six operations, every earlier value left as the fold's at its buffer: the
    contraction of the first argument with the scattered matrix times the broadcast row mask. The first 125
    operations are not opened: their fold is one unknown valuation. -/
theorem result_fold (V : Valuation τ sig (Elt F)) :
    after ops V (main_v98 : DevRef τ sig)
      = Host.dotGeneral dot_S4x128x4096_S4x4096x4096_S4x128x4096_2_2_1_1_0_0 none (after ops V (main_arg0 : DevRef τ sig))
          (mulf (Host.scatter scatter_S4x4096x4096_S4x4096x4x3_S4x4096x4_n_012_012_3 (fun _ b => b)
                  (after ops V (main_v67 : DevRef τ sig)) (after ops V (main_v92 : DevRef τ sig)) (after ops V (main_v66 : DevRef τ sig)))
                (broadcastInDim S4x4096x4096 ![0, 1, 2] bcast_S1x4096x1_S4x4096x4096_0_1_2
                  (broadcastInDim S1x4096x1 ![1] bcast_S4096_S1x4096x1_1 (uitofp .f32 (after ops V (main_v23 : DevRef τ sig)))))) := by
  rw [after_split V]
  generalize after ((ops : List (HloOp τ sig (Elt F))).take 125) V = W
  after_results

/-- The result buffer's value: the first argument contracted with the matrix that has the coefficients scattered
    (last write wins) into zeros at the index table and is then multiplied by the row mask broadcast along its
    rows. The index table (main_v92), the coefficients (main_v66) and the row mask (main_v23) are the fold's values at
    their buffers. -/
theorem result_eq (V : Valuation τ sig (Elt F)) :
    after ops V (main_v98 : DevRef τ sig)
      = Host.dotGeneral dot_S4x128x4096_S4x4096x4096_S4x128x4096_2_2_1_1_0_0 none (V (main_arg0 : DevRef τ sig))
          (mulf (Host.scatter scatter_S4x4096x4096_S4x4096x4x3_S4x4096x4_n_012_012_3 (fun _ b => b)
                  (broadcastInDim S4x4096x4096 ![] bcast_S_S4x4096x4096 (constant S_ .f32 0x00000000#32))
                  (after ops V (main_v92 : DevRef τ sig)) (after ops V (main_v66 : DevRef τ sig)))
                (broadcastInDim S4x4096x4096 ![0, 1, 2] bcast_S1x4096x1_S4x4096x4096_0_1_2
                  (broadcastInDim S1x4096x1 ![1] bcast_S4096_S1x4096x1_1 (uitofp .f32 (after ops V (main_v23 : DevRef τ sig)))))) := by
  rw [result_fold, arg0_eq, v67_eq]

/-- The same at a device's launch contents: the first argument read from the launch memory. -/
theorem result_eq_launch (m : (ℓ : Loc nD τ sig) → Buf (Elt F) ℓ) (c : Dev nD) :
    after ops (launchContents m c) (main_v98 : DevRef τ sig)
      = Host.dotGeneral dot_S4x128x4096_S4x4096x4096_S4x128x4096_2_2_1_1_0_0 none (m ((c.tc : Thread nD τ).loc main_arg0))
          (mulf (Host.scatter scatter_S4x4096x4096_S4x4096x4x3_S4x4096x4_n_012_012_3 (fun _ b => b)
                  (broadcastInDim S4x4096x4096 ![] bcast_S_S4x4096x4096 (constant S_ .f32 0x00000000#32))
                  (after ops (launchContents m c) (main_v92 : DevRef τ sig)) (after ops (launchContents m c) (main_v66 : DevRef τ sig)))
                (broadcastInDim S4x4096x4096 ![0, 1, 2] bcast_S1x4096x1_S4x4096x4096_0_1_2
                  (broadcastInDim S1x4096x1 ![1] bcast_S4096_S1x4096x1_1 (uitofp .f32 (after ops (launchContents m c) (main_v23 : DevRef τ sig)))))) :=
  result_eq (launchContents m c)

end Cert.ReferenceIdeal.RefRun

end
-- ==== Proof.Shared.lean ====
/- What the two programs' host chains share. Both build, from the second argument, the same coefficients, the same row
   mask and the same index table by the same operations in the same order; they differ only in where the mask is
   applied and in the buffers' numbering past the coefficients. Here: the kernel program's scattered matrix read
   through the operations after the coefficients only, and the three shared values identified across the programs. -/
import proofs.«138733_j87840671137910_2_alg».proof.Proof.KI.Entry
import proofs.«138733_j87840671137910_2_alg».proof.Proof.RefRun

noncomputable section

namespace Cert.Shared

open Idealize.ShloMosaic Idealize.ShloMosaic.TcCoe Idealize.SL.Sem Idealize.ShloMosaic.StableHlo

/-- The fold over two lists run one after the other is the fold over their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]

/-! ## The kernel program's chain -/

section Kernel

open Cert.KernelIdeal Cert.KernelIdeal.Gen Cert.KernelIdeal.Hand

set_option maxRecDepth 8192 in
set_option maxHeartbeats 40000000 in
/-- The kernel program's host operations after the coefficients: the row mask converted, broadcast and multiplied into
    the coefficients, the product rounded, the zero matrix, the index table's twenty-six operations, the scatter. -/
abbrev kpost : List (HloOp τ sig (Elt F)) :=
  ( StableHlo.unary main_v23 main_v67 (uitofp .f32 : (⟨S4096, .i1⟩ : BufTy).Contents (Elt F) → (⟨S4096, .f32⟩ : BufTy).Contents (Elt F))
  :: StableHlo.unary main_v67 main_v68 (broadcastInDim S1x4096x1 ![1] bcast_S4096_S1x4096x1_1 : (⟨S4096, .f32⟩ : BufTy).Contents (Elt F) → (⟨S1x4096x1, .f32⟩ : BufTy).Contents (Elt F))
  :: StableHlo.unary main_v68 main_v69 (broadcastInDim S4x4096x4 ![0, 1, 2] bcast_S1x4096x1_S4x4096x4_0_1_2 : (⟨S1x4096x1, .f32⟩ : BufTy).Contents (Elt F) → (⟨S4x4096x4, .f32⟩ : BufTy).Contents (Elt F))
  :: StableHlo.binary main_v66 main_v69 main_v70 (mulf : (⟨S4x4096x4, .f32⟩ : BufTy).Contents (Elt F) → (⟨S4x4096x4, .f32⟩ : BufTy).Contents (Elt F) → (⟨S4x4096x4, .f32⟩ : BufTy).Contents (Elt F))
  :: StableHlo.unary main_v70 main_v71 ((truncf .bf16 · bitsLt_bf16_f32) : (⟨S4x4096x4, .f32⟩ : BufTy).Contents (Elt F) → (⟨S4x4096x4, .bf16⟩ : BufTy).Contents (Elt F))
  :: StableHlo.nullary main_cst_13 (constant S_ .bf16 0x0000#16)
  :: StableHlo.unary main_cst_13 main_v72 (broadcastInDim S4x4096x4096 ![] bcast_S_S4x4096x4096 : (⟨S_, .bf16⟩ : BufTy).Contents (Elt F) → (⟨S4x4096x4096, .bf16⟩ : BufTy).Contents (Elt F))
  :: StableHlo.nullary main_v73 (iotaInDim S4 32 0)
  :: StableHlo.unary main_v73 main_v74 (broadcastInDim S4x1x1 ![0] bcast_S4_S4x1x1_0 : (⟨S4, .i32⟩ : BufTy).Contents (Elt F) → (⟨S4x1x1, .i32⟩ : BufTy).Contents (Elt F))
  :: StableHlo.nullary main_v75 (iotaInDim S4096 32 0)
  :: StableHlo.unary main_v75 main_v76 (broadcastInDim S1x4096x1 ![1] bcast_S4096_S1x4096x1_1 : (⟨S4096, .i32⟩ : BufTy).Contents (Elt F) → (⟨S1x4096x1, .i32⟩ : BufTy).Contents (Elt F))
  :: StableHlo.nullary main_c_14 (constantI S_ 32 0#32)
  :: StableHlo.unary main_c_14 main_v77 (broadcastInDim S4x1x1 ![] bcast_S_S4x1x1 : (⟨S_, .i32⟩ : BufTy).Contents (Elt F) → (⟨S4x1x1, .i32⟩ : BufTy).Contents (Elt F))
  :: StableHlo.binary main_v74 main_v77 main_v78 (cmpi .slt : (⟨S4x1x1, .i32⟩ : BufTy).Contents (Elt F) → (⟨S4x1x1, .i32⟩ : BufTy).Contents (Elt F) → (⟨S4x1x1, .i1⟩ : BufTy).Contents (Elt F))
  :: StableHlo.nullary main_c_15 (constantI S_ 32 4#32)
  :: StableHlo.unary main_c_15 main_v79 (broadcastInDim S4x1x1 ![] bcast_S_S4x1x1 : (⟨S_, .i32⟩ : BufTy).Contents (Elt F) → (⟨S4x1x1, .i32⟩ : BufTy).Contents (Elt F))
  :: StableHlo.binary main_v74 main_v79 main_v80 (addi : (⟨S4x1x1, .i32⟩ : BufTy).Contents (Elt F) → (⟨S4x1x1, .i32⟩ : BufTy).Contents (Elt F) → (⟨S4x1x1, .i32⟩ : BufTy).Contents (Elt F))
  :: StableHlo.ternary main_v78 main_v80 main_v74 main_v81 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: StableHlo.nullary main_c_16 (constantI S_ 32 0#32)
  :: StableHlo.unary main_c_16 main_v82 (broadcastInDim S1x4096x1 ![] bcast_S_S1x4096x1 : (⟨S_, .i32⟩ : BufTy).Contents (Elt F) → (⟨S1x4096x1, .i32⟩ : BufTy).Contents (Elt F))
  :: StableHlo.binary main_v76 main_v82 main_v83 (cmpi .slt : (⟨S1x4096x1, .i32⟩ : BufTy).Contents (Elt F) → (⟨S1x4096x1, .i32⟩ : BufTy).Contents (Elt F) → (⟨S1x4096x1, .i1⟩ : BufTy).Contents (Elt F))
  :: StableHlo.nullary main_c_17 (constantI S_ 32 4096#32)
  :: StableHlo.unary main_c_17 main_v84 (broadcastInDim S1x4096x1 ![] bcast_S_S1x4096x1 : (⟨S_, .i32⟩ : BufTy).Contents (Elt F) → (⟨S1x4096x1, .i32⟩ : BufTy).Contents (Elt F))
  :: StableHlo.binary main_v76 main_v84 main_v85 (addi : (⟨S1x4096x1, .i32⟩ : BufTy).Contents (Elt F) → (⟨S1x4096x1, .i32⟩ : BufTy).Contents (Elt F) → (⟨S1x4096x1, .i32⟩ : BufTy).Contents (Elt F))
  :: StableHlo.ternary main_v83 main_v85 main_v76 main_v86 (select : (⟨S1x4096x1, .i1⟩ : BufTy).Contents (Elt F) → (⟨S1x4096x1, .i32⟩ : BufTy).Contents (Elt F) → (⟨S1x4096x1, .i32⟩ : BufTy).Contents (Elt F) → (⟨S1x4096x1, .i32⟩ : BufTy).Contents (Elt F))
  :: StableHlo.nullary main_c_18 (constantI S_ 32 0#32)
  :: StableHlo.unary main_c_18 main_v87 (broadcastInDim S4x4096x4 ![] bcast_S_S4x4096x4 : (⟨S_, .i32⟩ : BufTy).Contents (Elt F) → (⟨S4x4096x4, .i32⟩ : BufTy).Contents (Elt F))
  :: StableHlo.binary main_v52 main_v87 main_v88 (cmpi .slt : (⟨S4x4096x4, .i32⟩ : BufTy).Contents (Elt F) → (⟨S4x4096x4, .i32⟩ : BufTy).Contents (Elt F) → (⟨S4x4096x4, .i1⟩ : BufTy).Contents (Elt F))
  :: StableHlo.nullary main_c_19 (constantI S_ 32 4096#32)
  :: StableHlo.unary main_c_19 main_v89 (broadcastInDim S4x4096x4 ![] bcast_S_S4x4096x4 : (⟨S_, .i32⟩ : BufTy).Contents (Elt F) → (⟨S4x4096x4, .i32⟩ : BufTy).Contents (Elt F))
  :: StableHlo.binary main_v52 main_v89 main_v90 (addi : (⟨S4x4096x4, .i32⟩ : BufTy).Contents (Elt F) → (⟨S4x4096x4, .i32⟩ : BufTy).Contents (Elt F) → (⟨S4x4096x4, .i32⟩ : BufTy).Contents (Elt F))
  :: StableHlo.ternary main_v88 main_v90 main_v52 main_v91 (select : (⟨S4x4096x4, .i1⟩ : BufTy).Contents (Elt F) → (⟨S4x4096x4, .i32⟩ : BufTy).Contents (Elt F) → (⟨S4x4096x4, .i32⟩ : BufTy).Contents (Elt F) → (⟨S4x4096x4, .i32⟩ : BufTy).Contents (Elt F))
  :: StableHlo.unary main_v81 main_v92 (broadcastInDim S4x4096x4 ![0, 1, 2] bcast_S4x1x1_S4x4096x4_0_1_2 : (⟨S4x1x1, .i32⟩ : BufTy).Contents (Elt F) → (⟨S4x4096x4, .i32⟩ : BufTy).Contents (Elt F))
  :: StableHlo.unary main_v86 main_v93 (broadcastInDim S4x4096x4 ![0, 1, 2] bcast_S1x4096x1_S4x4096x4_0_1_2 : (⟨S1x4096x1, .i32⟩ : BufTy).Contents (Elt F) → (⟨S4x4096x4, .i32⟩ : BufTy).Contents (Elt F))
  :: StableHlo.unary main_v92 main_v94 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F))
  :: StableHlo.unary main_v93 main_v95 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F))
  :: StableHlo.unary main_v91 main_v96 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F))
  :: StableHlo.nary ![main_v94, main_v95, main_v96] main_v97 (fun u => concatenate S4x4096x4x3 3 [⟨S4x4096x4x1, u 0⟩, ⟨S4x4096x4x1, u 1⟩, ⟨S4x4096x4x1, u 2⟩] concatenates_S4x4096x4x1_S4x4096x4x1_S4x4096x4x1_S4x4096x4x3_d3)
  :: StableHlo.ternary main_v72 main_v97 main_v71 main_v98 ((fun x i u => Host.scatter scatter_S4x4096x4096_S4x4096x4x3_S4x4096x4_n_012_012_3 (fun _ b => b) x i u) : (⟨S4x4096x4096, .bf16⟩ : BufTy).Contents (Elt F) → (⟨S4x4096x4x3, .i32⟩ : BufTy).Contents (Elt F) → (⟨S4x4096x4, .bf16⟩ : BufTy).Contents (Elt F) → (⟨S4x4096x4096, .bf16⟩ : BufTy).Contents (Elt F))
  :: [] )

/-- The operations before those: the four earlier stretches and the last stretch's first 39. -/
abbrev kpre : List (HloOp τ sig (Elt F)) :=
  hostOps0 ++ (hostOps0_1 ++ (hostOps0_2 ++ (hostOps0_3 ++ (hostOps0_4 (F := F)).take 39)))

set_option maxRecDepth 8192 in
theorem kdrop : (hostOps0_4 (F := F)).drop 39 = kpost := rfl

theorem kflat_eq : (stretches (F := F)).flatten = kpre ++ kpost := by
  have h : (hostOps0_4 (F := F)) = (hostOps0_4 (F := F)).take 39 ++ kpost := by rw [← kdrop, List.take_append_drop]
  show hostOps0 ++ (hostOps0_1 ++ (hostOps0_2 ++ (hostOps0_3 ++ (hostOps0_4 ++ [])))) = _
  rw [List.append_nil]
  conv_lhs => rw [h]
  simp only [kpre, List.append_assoc]

/-- The kernel program's fold splits at the coefficients. -/
theorem kafter_split (V0 : Valuation τ sig (Elt F)) :
    after (stretches (F := F)).flatten V0 = after kpost (after kpre V0) := by
  rw [kflat_eq, after_append]

set_option maxRecDepth 8192 in
set_option maxHeartbeats 4000000 in
/-- The matrix the kernel multiplies by, when the launch is reached: the coefficients times the row mask (broadcast
    along each row's four entries), rounded, scattered (last write wins) into zeros at the index table. The
    coefficients, the mask and the index table are the launch-time contents of their buffers. -/
theorem kernel_mat (m : (ℓ : Loc nD τ sig) → Buf (Elt F) ℓ) (c : Dev nD) :
    (V m c main_v98 : S4x4096x4096.Idx → Elt F .bf16)
      = Host.scatter scatter_S4x4096x4096_S4x4096x4x3_S4x4096x4_n_012_012_3 (fun _ b => b)
          (broadcastInDim S4x4096x4096 ![] bcast_S_S4x4096x4096 (constant S_ .bf16 0x0000#16)) (V m c main_v97)
          (truncf .bf16 (mulf (V m c main_v66) (broadcastInDim S4x4096x4 ![0, 1, 2] bcast_S1x4096x1_S4x4096x4_0_1_2
            (broadcastInDim S1x4096x1 ![1] bcast_S4096_S1x4096x1_1 (uitofp .f32 (V m c main_v23))))) bitsLt_bf16_f32) := by
  dsimp only [V]
  rw [kafter_split]
  generalize after (kpre (F := F)) _ = W
  after_results_simp

end Kernel

/-! ## The values the two programs share -/

section Cross

variable (mR : (ℓ : Loc Cert.ReferenceIdeal.nD Cert.ReferenceIdeal.τ Cert.ReferenceIdeal.sig) → Buf (Elt F) ℓ)
  (mK : (ℓ : Loc Cert.KernelIdeal.nD Cert.KernelIdeal.τ Cert.KernelIdeal.sig) → Buf (Elt F) ℓ) (c : Dev 1)

set_option maxRecDepth 16384 in
set_option maxHeartbeats 8000000 in
/-- The row mask is the same in both programs: four conjunctions over the second argument's two coordinates. -/
theorem shared_mask (h1 : mR ((c.tc : Thread 1 Cert.ReferenceIdeal.τ).loc Cert.ReferenceIdeal.main_arg1) = mK ((c.tc : Thread 1 Cert.KernelIdeal.τ).loc Cert.KernelIdeal.main_arg1)) :
    (after Cert.ReferenceIdeal.RefRun.ops (launchContents mR c) (Cert.ReferenceIdeal.main_v23 : DevRef Cert.ReferenceIdeal.τ Cert.ReferenceIdeal.sig) : Cert.ReferenceIdeal.S4096.Idx → BitVec 1)
      = (Cert.KernelIdeal.Hand.V mK c Cert.KernelIdeal.main_v23 : Cert.KernelIdeal.S4096.Idx → BitVec 1) := by
  dsimp only [Cert.KernelIdeal.Hand.V]
  simp only [Cert.KernelIdeal.Hand.stretches, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil, List.cons_append, List.nil_append]
  after_results_simp
  rw [show launchContents mR c (Proc.devRef .tc Cert.ReferenceIdeal.main_arg1) = mK (c, Proc.devRef .tc Cert.KernelIdeal.main_arg1) from h1]
  rfl

end Cross

end Cert.Shared

end
-- ==== Proof.SharedIdx.lean ====
/-
  The index table is the same in both programs.

  Both programs build the scatter's index table from the second argument by the same operations in the same order:
  three one-component pieces (the batch number, the row number, the corner's column computed from the second
  argument's coordinates), concatenated along the last axis. Piece by piece the two programs' values agree, given that
  the second argument is the same.
-/
import proofs.«138733_j87840671137910_2_alg».proof.Proof.KI.Entry
import proofs.«138733_j87840671137910_2_alg».proof.Proof.RefRun
import Idealize.ShloMosaic.Lib.StableHlo.Run

noncomputable section

namespace Cert.SharedIdx

open Idealize.ShloMosaic Idealize.ShloMosaic.TcCoe Idealize.SL.Sem Idealize.ShloMosaic.StableHlo

/-- Two concatenations of three pieces of one shape agree when the pieces agree. -/
theorem concat3_congr {α : Type} {t s : Shape} {a : Fin t.rank} {a0 a1 a2 b0 b1 b2 : s.Idx → α}
    {hc hc' : Shape.Concatenates [s, s, s] t a}
    (e0 : a0 = b0) (e1 : a1 = b1) (e2 : a2 = b2) :
    concatenate t a [⟨s, a0⟩, ⟨s, a1⟩, ⟨s, a2⟩] hc = concatenate t a [⟨s, b0⟩, ⟨s, b1⟩, ⟨s, b2⟩] hc' := by
  subst e0 e1 e2
  rfl

variable {F : FTy → Type} [FloatOps F]

variable (mR : (ℓ : Loc Cert.ReferenceIdeal.nD Cert.ReferenceIdeal.τ Cert.ReferenceIdeal.sig) → Buf (Elt F) ℓ)
  (mK : (ℓ : Loc Cert.KernelIdeal.nD Cert.KernelIdeal.τ Cert.KernelIdeal.sig) → Buf (Elt F) ℓ) (c : Dev 1)

set_option maxRecDepth 16384 in
set_option maxHeartbeats 32000000 in
/-- The scatter's index table is the same in both programs. -/
theorem shared_idx (h1 : mR ((c.tc : Thread 1 Cert.ReferenceIdeal.τ).loc Cert.ReferenceIdeal.main_arg1) = mK ((c.tc : Thread 1 Cert.KernelIdeal.τ).loc Cert.KernelIdeal.main_arg1)) :
    (after Cert.ReferenceIdeal.RefRun.ops (launchContents mR c) (Cert.ReferenceIdeal.main_v92 : DevRef Cert.ReferenceIdeal.τ Cert.ReferenceIdeal.sig) : Cert.ReferenceIdeal.S4x4096x4x3.Idx → BitVec 32)
      = (Cert.KernelIdeal.Hand.V mK c Cert.KernelIdeal.main_v97 : Cert.KernelIdeal.S4x4096x4x3.Idx → BitVec 32) := by
  dsimp only [Cert.KernelIdeal.Hand.V]
  simp only [Cert.KernelIdeal.Hand.stretches, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil, List.cons_append, List.nil_append]
  after_results_simp
  simp only [Matrix.cons_val]
  refine concat3_congr ?_ ?_ ?_
  · after_results_simp
    try rfl
  · after_results_simp
    try rfl
  · after_results_simp
    rw [show launchContents mR c (Proc.devRef .tc Cert.ReferenceIdeal.main_arg1) = mK (c, Proc.devRef .tc Cert.KernelIdeal.main_arg1) from h1]
    try rfl

end Cert.SharedIdx

end
-- ==== Proof.SharedCoef.lean ====
/-
  The interpolation coefficients are the same in both programs.

  Both programs compute, from the second argument, the four bilinear coefficients of every row by the same operations
  in the same order: the fractional parts of the two clipped coordinates, the pairs `(1 - fx, fx)` and `(fx, fy)`
  concatenated, broadcast against each other, multiplied and reshaped to four entries per row. Piece by piece the two
  programs' values agree, given that the second argument is the same.
-/
import proofs.«138733_j87840671137910_2_alg».proof.Proof.KI.Entry
import proofs.«138733_j87840671137910_2_alg».proof.Proof.RefRun
import Idealize.ShloMosaic.Lib.StableHlo.Run

noncomputable section

namespace Cert.SharedCoef

open Idealize.ShloMosaic Idealize.ShloMosaic.TcCoe Idealize.SL.Sem Idealize.ShloMosaic.StableHlo

/-- Two concatenations of two pieces of one shape agree when the pieces agree. -/
theorem concat2_congr {α : Type} {t s : Shape} {a : Fin t.rank} {a0 a1 b0 b1 : s.Idx → α}
    {hc hc' : Shape.Concatenates [s, s] t a}
    (e0 : a0 = b0) (e1 : a1 = b1) :
    concatenate t a [⟨s, a0⟩, ⟨s, a1⟩] hc = concatenate t a [⟨s, b0⟩, ⟨s, b1⟩] hc' := by
  subst e0 e1
  rfl

/-- Two reshapes, read index by index, agree when their operands agree. -/
theorem shapeCast_fun_congr {α : Type} {s t : Shape} {x y : s.Idx → α} {h h' : s.ShapeCasts t} (e : x = y) :
    (fun i => shapeCast t x h i) = (fun i => shapeCast t y h' i) := by
  subst e
  rfl

variable {F : FTy → Type} [FloatOps F]

variable (mR : (ℓ : Loc Cert.ReferenceIdeal.nD Cert.ReferenceIdeal.τ Cert.ReferenceIdeal.sig) → Buf (Elt F) ℓ)
  (mK : (ℓ : Loc Cert.KernelIdeal.nD Cert.KernelIdeal.τ Cert.KernelIdeal.sig) → Buf (Elt F) ℓ) (c : Dev 1)

set_option maxRecDepth 16384 in
set_option maxHeartbeats 64000000 in
/-- The interpolation coefficients are the same in both programs. -/
theorem shared_coef (h1 : mR ((c.tc : Thread 1 Cert.ReferenceIdeal.τ).loc Cert.ReferenceIdeal.main_arg1) = mK ((c.tc : Thread 1 Cert.KernelIdeal.τ).loc Cert.KernelIdeal.main_arg1)) :
    (after Cert.ReferenceIdeal.RefRun.ops (launchContents mR c) (Cert.ReferenceIdeal.main_v66 : DevRef Cert.ReferenceIdeal.τ Cert.ReferenceIdeal.sig) : Cert.ReferenceIdeal.S4x4096x4.Idx → Elt F .f32)
      = (Cert.KernelIdeal.Hand.V mK c Cert.KernelIdeal.main_v66 : Cert.KernelIdeal.S4x4096x4.Idx → Elt F .f32) := by
  dsimp only [Cert.KernelIdeal.Hand.V]
  simp only [Cert.KernelIdeal.Hand.stretches, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil, List.cons_append, List.nil_append]
  after_results_simp
  refine shapeCast_fun_congr ?_
  refine congrArg₂ mulf ?_ ?_
  · refine congrArg (broadcastInDim _ _ _) (congrArg (broadcastInDim _ _ _) ?_)
    refine concat2_congr ?_ ?_
    · after_results_simp
      rw [show launchContents mR c (Proc.devRef .tc Cert.ReferenceIdeal.main_arg1) = mK (c, Proc.devRef .tc Cert.KernelIdeal.main_arg1) from h1]
      try rfl
    · after_results_simp
      rw [show launchContents mR c (Proc.devRef .tc Cert.ReferenceIdeal.main_arg1) = mK (c, Proc.devRef .tc Cert.KernelIdeal.main_arg1) from h1]
      try rfl
  · refine congrArg (broadcastInDim _ _ _) (congrArg (broadcastInDim _ _ _) ?_)
    refine concat2_congr ?_ ?_
    · after_results_simp
      rw [show launchContents mR c (Proc.devRef .tc Cert.ReferenceIdeal.main_arg1) = mK (c, Proc.devRef .tc Cert.KernelIdeal.main_arg1) from h1]
      try rfl
    · after_results_simp
      rw [show launchContents mR c (Proc.devRef .tc Cert.ReferenceIdeal.main_arg1) = mK (c, Proc.devRef .tc Cert.KernelIdeal.main_arg1) from h1]
      try rfl

end Cert.SharedCoef

end
-- ==== Proof.LibScatterMask.lean ====
/-
  A "set" scatter (the body returns the update) and a multiplicative mask.

  `Host.scatter d (fun _ b => b) x idx upd` is the left fold, over the update indices in row-major
  order, of the step "write the update at the place it lands, when it lands inside the operand".
  When every update's mask entry `wu j` equals the operand-side mask entry `ws i` at the place
  `i` where the update lands, masking the updates before the scatter is the same as masking the
  scattered result afterwards (the untouched places read the operand, which is masked the same way).
-/
import Idealize.ShloMosaic.PureOps.ShapeOps
import Mathlib.Algebra.GroupWithZero.Basic
import Mathlib.Data.EReal.Basic

namespace Idealize.ShloMosaic.LibScatterMask

open Idealize.ShloMosaic

variable {α : Type} {s si u : Shape} {w : Nat}

/-- One step of the "set" scatter's fold: the update at `j` replaces the element at the place it
    lands (`d.resultIdx? j idx`), or is dropped when it lands outside the operand. -/
def setStep (d : ScatterDims s si u) (idx : IVec si w) (upd : u.Idx → α) (r : s.Idx → α)
    (n : Fin u.numel) : s.Idx → α :=
  match d.resultIdx? (u.rowMajor.symm n) idx with
  | some i => fun i' => if i' = i then upd (u.rowMajor.symm n) else r i'
  | none => r

/-- The "set" scatter is the left fold of `setStep` over the update indices in row-major order. -/
theorem scatter_set_eq_foldl (d : ScatterDims s si u) (x : s.Idx → α) (idx : IVec si w)
    (upd : u.Idx → α) :
    Host.scatter d (fun _ b => b) x idx upd = (List.finRange u.numel).foldl (setStep d idx upd) x :=
  rfl

/-- One fold step commutes with the mask: if the accumulators agree up to the mask `ws`, and the
    update's mask entry is the mask entry of the place it lands, they agree up to the mask after
    the step. -/
theorem setStep_mul_mask [Mul α] (d : ScatterDims s si u) (idx : IVec si w) (upd wu : u.Idx → α)
    (ws : s.Idx → α)
    (hrow : ∀ (j : u.Idx) (i : s.Idx), d.resultIdx? j idx = some i → wu j = ws i)
    (r r' : s.Idx → α) (hr : ∀ i, r' i = r i * ws i) (n : Fin u.numel) (i : s.Idx) :
    setStep d idx (fun j => upd j * wu j) r' n i = setStep d idx upd r n i * ws i := by
  unfold setStep
  cases h : d.resultIdx? (u.rowMajor.symm n) idx with
  | none => exact hr i
  | some i₀ =>
    by_cases hi : i = i₀
    · subst hi
      simp only [if_true]
      rw [hrow _ _ h]
    · simp only [if_neg hi]
      exact hr i

/-- The fold of the masked steps from a masked start is the mask times the fold of the unmasked
    steps, over any list of update positions. -/
theorem foldl_setStep_mul_mask [Mul α] (d : ScatterDims s si u) (idx : IVec si w)
    (upd wu : u.Idx → α) (ws : s.Idx → α)
    (hrow : ∀ (j : u.Idx) (i : s.Idx), d.resultIdx? j idx = some i → wu j = ws i)
    (l : List (Fin u.numel)) (r r' : s.Idx → α) (hr : ∀ i, r' i = r i * ws i) (i : s.Idx) :
    l.foldl (setStep d idx (fun j => upd j * wu j)) r' i = l.foldl (setStep d idx upd) r i * ws i := by
  induction l generalizing r r' with
  | nil => exact hr i
  | cons n l ih =>
    simp only [List.foldl_cons]
    exact ih _ _ (fun i => setStep_mul_mask d idx upd wu ws hrow r r' hr n i)

/-- A "set" scatter of masked updates into a masked operand is the mask times the scatter of the
    unmasked updates into the unmasked operand, when every update's mask entry is the mask entry
    of the place it lands: `x'` is `x` times the operand-side mask `ws`, the updates are multiplied
    by the update-side mask `wu`. -/
theorem scatter_set_mul_mask_of [Mul α] (d : ScatterDims s si u) (idx : IVec si w)
    (upd wu : u.Idx → α) (ws : s.Idx → α)
    (hrow : ∀ (j : u.Idx) (i : s.Idx), d.resultIdx? j idx = some i → wu j = ws i)
    (x x' : s.Idx → α) (hx : ∀ i, x' i = x i * ws i) :
    Host.scatter d (fun _ b => b) x' idx (fun j => upd j * wu j)
      = fun i => Host.scatter d (fun _ b => b) x idx upd i * ws i := by
  funext i
  rw [scatter_set_eq_foldl, scatter_set_eq_foldl]
  exact foldl_setStep_mul_mask d idx upd wu ws hrow _ x x' hx i

/-- A "set" scatter into zeros of masked updates is the mask times the scatter of the unmasked
    updates, when every update's mask entry is the mask entry of the place it lands. -/
theorem scatter_set_mul_mask [MulZeroClass α] (d : ScatterDims s si u) (idx : IVec si w)
    (upd wu : u.Idx → α) (ws : s.Idx → α)
    (hrow : ∀ (j : u.Idx) (i : s.Idx), d.resultIdx? j idx = some i → wu j = ws i) :
    Host.scatter d (fun _ b => b) (fun _ => (0 : α)) idx (fun j => upd j * wu j)
      = fun i => Host.scatter d (fun _ b => b) (fun _ => (0 : α)) idx upd i * ws i :=
  scatter_set_mul_mask_of d idx upd wu ws hrow _ _ (fun _ => (zero_mul _).symm)

/-- The extended reals multiply with an absorbing zero, so the lemmas above apply at `EReal`. -/
noncomputable example : MulZeroClass EReal := inferInstance

end Idealize.ShloMosaic.LibScatterMask
-- ==== Proof.LibRowIndex.lean ====
/-
  The row component of a scatter's index table.

  For an operand of shape 4×4096×4096, scatter indices 4×4096×4×3 and scalar updates 4×4096×4 (every
  operand axis inserted, the index vector on the last axis of the indices, its components going
  to operand axes 0, 1, 2 in order), update `(n, r, q)` lands at the operand index whose
  coordinates are the three components of the index vector at `(n, r, q)`. When component 1 of
  every index vector is the row number `r`, every update lands in its own row. The index table
  both programs build has that property: its component 1 is the iota over the rows, wrapped by a
  "negative index" select that never fires on an iota.
-/
import Idealize.ShloMosaic.Lib.ValueIdx
import Idealize.ShloMosaic.Lib.Pipeline.Value
import Mathlib.Tactic

namespace Idealize.ShloMosaic.LibRowIndex

open Idealize.ShloMosaic Idealize.ShloMosaic.ValueIdx

/-- The operand's shape. -/
abbrev S : Shape := ⟨3, ![4, 4096, 4096]⟩
/-- The scatter indices' shape: one index vector of three components per update. -/
abbrev SI : Shape := ⟨4, ![4, 4096, 4, 3]⟩
/-- The updates' shape. -/
abbrev U : Shape := ⟨3, ![4, 4096, 4]⟩
/-- One component of the index table. -/
abbrev SI1 : Shape := ⟨4, ![4, 4096, 4, 1]⟩
/-- The row numbers as a column. -/
abbrev S141 : Shape := ⟨3, ![1, 4096, 1]⟩
/-- The row numbers. -/
abbrev S1d : Shape := ⟨1, ![4096]⟩
/-- The scalar shape. -/
abbrev S0 : Shape := ⟨0, ![]⟩

/-- With every operand axis inserted there is no kept operand axis. -/
theorem sKept_nil : ∀ a : Fin S.rank, a ∉ S.kept ([0, 1, 2] : List (Fin S.rank)) := by decide

/-- With no window axis, the update scatter axis in the position of scatter-indices axis `b`
    (one of the first three) is update axis `b`. -/
theorem uScatter_get : ∀ (b : Fin 3) (hb : b.val < SI.rank)
    (h : List.idxOf (⟨b.val, hb⟩ : Fin SI.rank) ((List.finRange SI.rank).filter (·.val ≠ 3))
          < (U.kept ([] : List (Fin U.rank))).length),
    (U.kept ([] : List (Fin U.rank)))[List.idxOf (⟨b.val, hb⟩ : Fin SI.rank)
        ((List.finRange SI.rank).filter (·.val ≠ 3))]'h
      = (⟨b.val, b.isLt⟩ : Fin U.rank) := by decide

section Lit
variable {w : Nat} (wf : ScatterDims.WF S SI U [] [0, 1, 2] [0, 1, 2] 3)

/-- The scatter's dimension numbers, as a literal record over any proof of its conditions. -/
abbrev dLit : ScatterDims S SI U := ⟨[], [0, 1, 2], [0, 1, 2], 3, wf⟩

/-- No window coordinate: every operand axis is inserted. -/
theorem window_zero (j : U.Idx) (a : Fin S.rank) : (dLit wf).window j a = 0 := by
  unfold ScatterDims.window
  rw [dif_neg]
  exact sKept_nil a

/-- Update index `j` gives scatter-indices axis `b` (one of the first three) its own coordinate `b`. -/
theorem siCoord_eq (j : U.Idx) (b : Fin 3) (hb : b.val < SI.rank)
    (hm : (⟨b.val, hb⟩ : Fin SI.rank) ∈ (dLit wf).siKept) :
    ((dLit wf).siCoord j (⟨b.val, hb⟩ : Fin SI.rank) hm).val = (j b).val := by
  unfold ScatterDims.siCoord
  simp only [Fin.coe_cast]
  exact congrArg (fun a => (j a).val) (uScatter_get b hb _)

/-- Update index `j = (n, r, q)` reads component `c` of its index vector at `(n, r, q, c)`. -/
theorem siIdx_eq (j : U.Idx) (c : Fin (dLit wf).scatterDimsToOperandDims.length) :
    (dLit wf).siIdx j c = ix4 (j 0) (j 1) (j 2) (⟨c.val, c.isLt⟩ : Fin 3) := by
  funext b
  match b with
  | ⟨0, hb⟩ =>
    unfold ScatterDims.siIdx
    rw [dif_neg (show ¬ (0 : Nat) = 3 by decide)]
    exact Fin.ext (siCoord_eq wf j 0 hb _)
  | ⟨1, hb⟩ =>
    unfold ScatterDims.siIdx
    rw [dif_neg (show ¬ (1 : Nat) = 3 by decide)]
    exact Fin.ext (siCoord_eq wf j 1 hb _)
  | ⟨2, hb⟩ =>
    unfold ScatterDims.siIdx
    rw [dif_neg (show ¬ (2 : Nat) = 3 by decide)]
    exact Fin.ext (siCoord_eq wf j 2 hb _)
  | ⟨3, hb⟩ =>
    unfold ScatterDims.siIdx
    rw [dif_pos (show (3 : Nat) = 3 from rfl)]
    rfl

/-- The window's start on the operand's row axis is component 1 of the update's index vector,
    read signed. -/
theorem start_one (j : U.Idx) (idx : IVec SI w) :
    (dLit wf).start j idx (1 : Fin S.rank) = (idx (ix4 (j 0) (j 1) (j 2) (1 : Fin 3))).toInt := by
  unfold ScatterDims.start
  rw [dif_pos (show (1 : Fin S.rank) ∈ ([0, 1, 2] : List (Fin S.rank)) by decide)]
  rw [siIdx_eq]
  rfl

/-- When component 1 of every index vector is the row number, an update that lands inside the
    operand lands in its own row (the literal record's form). -/
theorem resultIdx_row_lit (idx : IVec SI w)
    (hI : ∀ (n : Fin 4) (r : Fin 4096) (q : Fin 4), (idx (ix4 n r q (1 : Fin 3))).toInt = (r.val : ℤ))
    (j : U.Idx) (i : S.Idx) (h : (dLit wf).resultIdx? j idx = some i) : (i 1).val = (j 1).val := by
  unfold ScatterDims.resultIdx? at h
  split at h
  · have hi := Option.some.inj h
    subst hi
    show ((dLit wf).start j idx (1 : Fin S.rank) + ((dLit wf).window j (1 : Fin S.rank) : ℤ)).toNat = (j 1).val
    rw [start_one, window_zero, hI (j 0) (j 1) (j 2)]
    omega
  · cases h

end Lit

/-- When component 1 of every index vector is the row number, an update that lands inside the
    operand lands in its own row: `i 1 = j 1` whenever update `j` lands at operand index `i`. The
    dimension numbers are any record with no window axis, all three operand axes inserted, the
    index vector's components going to operand axes 0, 1, 2, and the index vector on axis 3. -/
theorem resultIdx_row {w : Nat} (d : ScatterDims S SI U)
    (huw : d.updateWindowDims = []) (hiw : d.insertedWindowDims = [0, 1, 2])
    (hsd : d.scatterDimsToOperandDims = [0, 1, 2]) (hiv : d.indexVectorDim = 3)
    (idx : IVec SI w)
    (hI : ∀ (n : Fin 4) (r : Fin 4096) (q : Fin 4), (idx (ix4 n r q (1 : Fin 3))).toInt = (r.val : ℤ))
    (j : U.Idx) (i : S.Idx) (h : d.resultIdx? j idx = some i) : (i 1).val = (j 1).val := by
  obtain ⟨uw, iw, sd, iv, wf⟩ := d
  simp only at huw hiw hsd hiv
  subst huw hiw hsd hiv
  exact resultIdx_row_lit wf idx hI j i h

/-! ## The index table's component 1

Both programs build the table as the concatenation, along the last axis, of three one-component
pieces; the middle piece is the column of row numbers `iota`, passed through the "negative index"
wrap `select (R < 0) (R + 4096) R` and broadcast over the other two update axes. -/

/-- A row number below 4096, as a 32-bit word read signed, is itself. -/
theorem toInt_ofNat_row (r : Fin 4096) : (BitVec.ofNat 32 r.val).toInt = (r.val : ℤ) := by
  have hr := r.isLt
  rw [BitVec.toInt_eq_toNat_cond, BitVec.toNat_ofNat]
  split <;> omega

/-- The "negative index" wrap does nothing on a row number: it is not negative. -/
theorem wrap_row (r : Fin 4096) :
    Scalar.select (IntOp.cmpi .slt (BitVec.ofNat 32 r.val) 0#32) (IntOp.addi (BitVec.ofNat 32 r.val) 4096#32)
      (BitVec.ofNat 32 r.val) = BitVec.ofNat 32 r.val := by
  have h : (BitVec.ofNat 32 r.val).slt 0#32 = false := by
    rw [BitVec.slt, toInt_ofNat_row]
    simp
  unfold IntOp.cmpi
  simp only [h]
  exact select_zero _ _

/-- The wrapped column of row numbers, read at an index, is the word of the index's row. -/
theorem rowColumn_apply (h3 : S1d.BroadcastsInDim S141 ![1]) (h4 h5 : S0.BroadcastsInDim S141 ![])
    (k : S141.Idx) :
    select (cmpi .slt (broadcastInDim S141 ![1] h3 (iotaInDim S1d 32 0)) (broadcastInDim S141 ![] h4 (constantI S0 32 0#32)))
        (addi (broadcastInDim S141 ![1] h3 (iotaInDim S1d 32 0)) (broadcastInDim S141 ![] h5 (constantI S0 32 4096#32)))
        (broadcastInDim S141 ![1] h3 (iotaInDim S1d 32 0)) k
      = BitVec.ofNat 32 (k 1).val := by
  have hR : broadcastInDim S141 ![1] h3 (iotaInDim S1d 32 0) k = BitVec.ofNat 32 (k 1).val := by
    exact broadcastInDim_apply _ h3 (iotaInDim S1d 32 0) k (ix1 (k 1)) (fun a => by match a with | ⟨0, _⟩ => rfl)
  show Scalar.select (IntOp.cmpi .slt (broadcastInDim S141 ![1] h3 (iotaInDim S1d 32 0) k) 0#32)
      (IntOp.addi (broadcastInDim S141 ![1] h3 (iotaInDim S1d 32 0) k) 4096#32)
      (broadcastInDim S141 ![1] h3 (iotaInDim S1d 32 0) k) = _
  rw [hR]
  exact wrap_row (k 1)

/-- A table of three one-component pieces, read at component 1, is the middle piece. -/
theorem concat_mid {α : Type} (a0 x1 a2 : SI1.Idx → α) (hc : Shape.Concatenates [SI1, SI1, SI1] SI 3)
    (n : Fin 4) (r : Fin 4096) (q : Fin 4) :
    concatenate SI 3 [⟨SI1, a0⟩, ⟨SI1, x1⟩, ⟨SI1, a2⟩] hc (ix4 n r q (1 : Fin 3)) = x1 (ix4 n r q (0 : Fin 1)) :=
  concatenate_apply_piece (3 : Fin SI.rank) [⟨SI1, a0⟩, ⟨SI1, x1⟩, ⟨SI1, a2⟩] hc (ix4 n r q (1 : Fin 3)) 1
      (by simp) SI1 x1 rfl rfl 1 rfl
      (ix4 n r q (0 : Fin 1))
      (fun b hb => by
        match b with
        | ⟨0, _⟩ => rfl
        | ⟨1, _⟩ => rfl
        | ⟨2, _⟩ => rfl
        | ⟨3, _⟩ => exact absurd rfl hb)
      rfl

/-- The middle piece of the table, read at `(n, r, q, 0)`, is the word of the row number `r`. -/
theorem rowPiece_apply (h1 : U.BroadcastsInDim SI1 ![0, 1, 2]) (h2 : S141.BroadcastsInDim U ![0, 1, 2])
    (h3 : S1d.BroadcastsInDim S141 ![1]) (h4 h5 : S0.BroadcastsInDim S141 ![])
    (n : Fin 4) (r : Fin 4096) (q : Fin 4) :
    broadcastInDim SI1 ![0, 1, 2] h1 (broadcastInDim U ![0, 1, 2] h2
        (select (cmpi .slt (broadcastInDim S141 ![1] h3 (iotaInDim S1d 32 0)) (broadcastInDim S141 ![] h4 (constantI S0 32 0#32)))
          (addi (broadcastInDim S141 ![1] h3 (iotaInDim S1d 32 0)) (broadcastInDim S141 ![] h5 (constantI S0 32 4096#32)))
          (broadcastInDim S141 ![1] h3 (iotaInDim S1d 32 0)))) (ix4 n r q (0 : Fin 1))
      = BitVec.ofNat 32 r.val := by
  rw [broadcastInDim_apply _ h1 _ (ix4 n r q (0 : Fin 1)) (ix3 n r q)
      (fun a => by match a with | ⟨0, _⟩ => rfl | ⟨1, _⟩ => rfl | ⟨2, _⟩ => rfl)]
  rw [broadcastInDim_apply _ h2 _ (ix3 n r q) (ix3 (0 : Fin 1) r (0 : Fin 1))
      (fun a => by match a with | ⟨0, _⟩ => rfl | ⟨1, _⟩ => rfl | ⟨2, _⟩ => rfl)]
  exact rowColumn_apply h3 h4 h5 _

/-- **Component 1 of the index table is the row number**: the table built as the concatenation
    of three one-component pieces whose middle one is the wrapped column of row numbers,
    broadcast over the updates, reads `r` (signed) at `(n, r, q, 1)`, whatever the other two pieces
    are. -/
theorem table_row (a0 a2 : IVec SI1 32)
    (h1 : U.BroadcastsInDim SI1 ![0, 1, 2]) (h2 : S141.BroadcastsInDim U ![0, 1, 2])
    (h3 : S1d.BroadcastsInDim S141 ![1]) (h4 h5 : S0.BroadcastsInDim S141 ![])
    (hc : Shape.Concatenates [SI1, SI1, SI1] SI 3)
    (n : Fin 4) (r : Fin 4096) (q : Fin 4) :
    (concatenate SI 3
        [⟨SI1, a0⟩,
         ⟨SI1, broadcastInDim SI1 ![0, 1, 2] h1 (broadcastInDim U ![0, 1, 2] h2
            (select (cmpi .slt (broadcastInDim S141 ![1] h3 (iotaInDim S1d 32 0)) (broadcastInDim S141 ![] h4 (constantI S0 32 0#32)))
              (addi (broadcastInDim S141 ![1] h3 (iotaInDim S1d 32 0)) (broadcastInDim S141 ![] h5 (constantI S0 32 4096#32)))
              (broadcastInDim S141 ![1] h3 (iotaInDim S1d 32 0))))⟩,
         ⟨SI1, a2⟩] hc (ix4 n r q (1 : Fin 3))).toInt = (r.val : ℤ) := by
  rw [concat_mid, rowPiece_apply]
  exact toInt_ofNat_row r

/-- With that table as its scatter indices, an update that lands inside the operand lands in its
    own row. -/
theorem resultIdx_row_table (d : ScatterDims S SI U)
    (huw : d.updateWindowDims = []) (hiw : d.insertedWindowDims = [0, 1, 2])
    (hsd : d.scatterDimsToOperandDims = [0, 1, 2]) (hiv : d.indexVectorDim = 3)
    (a0 a2 : IVec SI1 32)
    (h1 : U.BroadcastsInDim SI1 ![0, 1, 2]) (h2 : S141.BroadcastsInDim U ![0, 1, 2])
    (h3 : S1d.BroadcastsInDim S141 ![1]) (h4 h5 : S0.BroadcastsInDim S141 ![])
    (hc : Shape.Concatenates [SI1, SI1, SI1] SI 3)
    (j : U.Idx) (i : S.Idx)
    (h : d.resultIdx? j
        (concatenate SI 3
          [⟨SI1, a0⟩,
           ⟨SI1, broadcastInDim SI1 ![0, 1, 2] h1 (broadcastInDim U ![0, 1, 2] h2
              (select (cmpi .slt (broadcastInDim S141 ![1] h3 (iotaInDim S1d 32 0)) (broadcastInDim S141 ![] h4 (constantI S0 32 0#32)))
                (addi (broadcastInDim S141 ![1] h3 (iotaInDim S1d 32 0)) (broadcastInDim S141 ![] h5 (constantI S0 32 4096#32)))
                (broadcastInDim S141 ![1] h3 (iotaInDim S1d 32 0))))⟩,
           ⟨SI1, a2⟩] hc) = some i) :
    (i 1).val = (j 1).val :=
  resultIdx_row d huw hiw hsd hiv _ (table_row a0 a2 h1 h2 h3 h4 h5 hc) j i h

end Idealize.ShloMosaic.LibRowIndex
-- ==== Proof.MaskedScatter.lean ====
/-
  Masking rows commutes with a scatter that keeps every update in its own row.

  The matrix has shape [4, 4096, 4096]; the updates have shape [4, 4096, 4] and update `(n, r, q)` is written at the index
  vector `(·, r, ·)` whose middle component is the row number `r` itself. A per-row vector `u` is broadcast along the batch
  and the last axis, to the updates' shape on one side and to the matrix's shape on the other. Scattering the updates
  times the broadcast `u` into a zero matrix gives the scatter of the plain updates times the broadcast `u`: an update and
  the place it lands carry the same row's entry of `u`, and an entry no update reaches is `0 = 0 · u[r]`.
-/
import proofs.«138733_j87840671137910_2_alg».proof.Proof.LibScatterMask
import proofs.«138733_j87840671137910_2_alg».proof.Proof.LibRowIndex
import Idealize.ShloMosaic.Lib.ValueIdx
import Idealize.ShloMosaic.Lib.Pipeline.Value

noncomputable section

namespace Cert.MaskedScatter

open Idealize.ShloMosaic Idealize.ShloMosaic.ValueIdx Idealize.ShloMosaic.LibRowIndex

/-- The per-row vector broadcast to the updates' shape reads, at an update, the vector at the update's row. -/
theorem rowMask_updates {α : Type} (u : S1d.Idx → α) (h1 : S1d.BroadcastsInDim S141 ![1]) (hU : S141.BroadcastsInDim U ![0, 1, 2]) (j : U.Idx) :
    broadcastInDim U ![0, 1, 2] hU (broadcastInDim S141 ![1] h1 u) j = u (ix1 ⟨(j 1).val, (j 1).isLt⟩) := by
  rw [broadcastInDim_apply ![0, 1, 2] hU _ j (ix3 (0 : Fin 1) (⟨(j 1).val, (j 1).isLt⟩ : Fin 4096) (0 : Fin 1))
      (fun a => by match a with | ⟨0, _⟩ => rfl | ⟨1, _⟩ => rfl | ⟨2, _⟩ => rfl),
    broadcastInDim_apply ![1] h1 u _ (ix1 (⟨(j 1).val, (j 1).isLt⟩ : Fin 4096))
      (fun a => by match a with | ⟨0, _⟩ => rfl)]

/-- The per-row vector broadcast to the matrix's shape reads, at an entry, the vector at the entry's row. -/
theorem rowMask_matrix {α : Type} (u : S1d.Idx → α) (h1 : S1d.BroadcastsInDim S141 ![1]) (hS : S141.BroadcastsInDim S ![0, 1, 2]) (i : S.Idx) :
    broadcastInDim S ![0, 1, 2] hS (broadcastInDim S141 ![1] h1 u) i = u (ix1 ⟨(i 1).val, (i 1).isLt⟩) := by
  rw [broadcastInDim_apply ![0, 1, 2] hS _ i (ix3 (0 : Fin 1) (⟨(i 1).val, (i 1).isLt⟩ : Fin 4096) (0 : Fin 1))
      (fun a => by match a with | ⟨0, _⟩ => rfl | ⟨1, _⟩ => rfl | ⟨2, _⟩ => rfl),
    broadcastInDim_apply ![1] h1 u _ (ix1 (⟨(i 1).val, (i 1).isLt⟩ : Fin 4096))
      (fun a => by match a with | ⟨0, _⟩ => rfl)]

/-- Scattering row-masked updates into zeros is row-masking the scatter of the updates. -/
theorem scatter_rowMask {α : Type} [MulZeroClass α] (d : ScatterDims S SI U)
    (huw : d.updateWindowDims = []) (hiw : d.insertedWindowDims = [0, 1, 2])
    (hsd : d.scatterDimsToOperandDims = [0, 1, 2]) (hiv : d.indexVectorDim = 3)
    (idx : IVec SI 32) (hI : ∀ (n : Fin 4) (r : Fin 4096) (q : Fin 4), (idx (ix4 n r q (1 : Fin 3))).toInt = (r.val : ℤ))
    (C : U.Idx → α) (u : S1d.Idx → α) (h1 : S1d.BroadcastsInDim S141 ![1])
    (hU : S141.BroadcastsInDim U ![0, 1, 2]) (hS : S141.BroadcastsInDim S ![0, 1, 2]) :
    Host.scatter d (fun _ b => b) (fun _ => (0 : α)) idx (fun j => C j * broadcastInDim U ![0, 1, 2] hU (broadcastInDim S141 ![1] h1 u) j)
      = fun i => Host.scatter d (fun _ b => b) (fun _ => (0 : α)) idx C i * broadcastInDim S ![0, 1, 2] hS (broadcastInDim S141 ![1] h1 u) i := by
  have key := LibScatterMask.scatter_set_mul_mask d idx C (fun j => u (ix1 ⟨(j 1).val, (j 1).isLt⟩)) (fun i => u (ix1 ⟨(i 1).val, (i 1).isLt⟩))
    (fun j i h => by
      have e := resultIdx_row d huw hiw hsd hiv idx hI j i h
      exact congrArg u (congrArg ix1 (Fin.ext e.symm)))
  have eU : (fun j => C j * broadcastInDim U ![0, 1, 2] hU (broadcastInDim S141 ![1] h1 u) j) = fun j => C j * u (ix1 ⟨(j 1).val, (j 1).isLt⟩) :=
    funext fun j => by rw [rowMask_updates u h1 hU j]
  rw [eU, key]
  funext i
  rw [rowMask_matrix u h1 hS i]

end Cert.MaskedScatter

end
-- ==== Proof.MatCore.lean ====
/-
  The two programs' sparse matrices are one matrix. Over the same index table `I` (whose middle component is the row
  number), the same coefficients `C` and the same 0/1 row mask `B`, the reference scatters `C` into a zero matrix and then
  multiplies every row by its mask entry; the kernel's program multiplies the coefficients of each row by the row's mask
  entry, rounds to the narrower format (the identity at the exact instance), and scatters into a zero matrix. Masking
  commutes with this scatter, so the two matrices agree at every entry.
-/
import proofs.«138733_j87840671137910_2_alg».proof.KernelIdeal
import proofs.«138733_j87840671137910_2_alg».proof.ReferenceIdeal
import proofs.«138733_j87840671137910_2_alg».proof.Proof.Gen.KernelIdeal
import proofs.«138733_j87840671137910_2_alg».proof.Proof.Gen.ReferenceIdeal
import proofs.«138733_j87840671137910_2_alg».proof.Proof.MaskedScatter
import Idealize.ShloMosaic.PureOps.Ideal
import Idealize.ShloMosaic.PureOps.Ideal.Laws

noncomputable section

namespace Cert.MatCore

open Idealize.ShloMosaic Idealize.ShloMosaic.ValueIdx Idealize.ShloMosaic.LibRowIndex

theorem ofBits_zero_bf16 : Ideal.ofBits .bf16 0x0000#16 = 0 := by simp [Ideal.ofBits, Ideal.ieee]

/-- The reference's masked scatter and the kernel program's scatter of masked coefficients, entry by entry. -/
theorem mat_core (I : IVec SI 32) (hI : ∀ (n : Fin 4) (r : Fin 4096) (q : Fin 4), (I (ix4 n r q (1 : Fin 3))).toInt = (r.val : ℤ))
    (C : U.Idx → EReal) (B : S1d.Idx → BitVec 1) (i : S.Idx) :
    (mulf (F := Ideal) (φ := .f32)
        (Host.scatter Cert.ReferenceIdeal.scatter_S4x4096x4096_S4x4096x4x3_S4x4096x4_n_012_012_3 (fun _ b => b)
          (broadcastInDim Cert.ReferenceIdeal.S4x4096x4096 ![] Cert.ReferenceIdeal.Facts₀.bcast_S_S4x4096x4096 (constant (F := Ideal) Cert.ReferenceIdeal.S_ .f32 0x00000000#32)) I C)
        (broadcastInDim Cert.ReferenceIdeal.S4x4096x4096 ![0, 1, 2] Cert.ReferenceIdeal.Facts₀.bcast_S1x4096x1_S4x4096x4096_0_1_2
          (broadcastInDim Cert.ReferenceIdeal.S1x4096x1 ![1] Cert.ReferenceIdeal.Facts₀.bcast_S4096_S1x4096x1_1 (uitofp (F := Ideal) .f32 B)))) i
      = (Host.scatter Cert.KernelIdeal.scatter_S4x4096x4096_S4x4096x4x3_S4x4096x4_n_012_012_3 (fun _ b => b)
          (broadcastInDim Cert.KernelIdeal.S4x4096x4096 ![] Cert.KernelIdeal.Facts₀.bcast_S_S4x4096x4096 (constant (F := Ideal) Cert.KernelIdeal.S_ .bf16 0x0000#16)) I
          (truncf (F := Ideal) .bf16 (mulf (F := Ideal) (φ := .f32) C (broadcastInDim Cert.KernelIdeal.S4x4096x4 ![0, 1, 2] Cert.KernelIdeal.Facts₀.bcast_S1x4096x1_S4x4096x4_0_1_2
            (broadcastInDim Cert.KernelIdeal.S1x4096x1 ![1] Cert.KernelIdeal.Facts₀.bcast_S4096_S1x4096x1_1 (uitofp (F := Ideal) .f32 B)))) Cert.KernelIdeal.Facts₀.bitsLt_bf16_f32)) i := by
  have zR : (broadcastInDim Cert.ReferenceIdeal.S4x4096x4096 ![] Cert.ReferenceIdeal.Facts₀.bcast_S_S4x4096x4096 (constant (F := Ideal) Cert.ReferenceIdeal.S_ .f32 0x00000000#32) : S.Idx → EReal) = fun _ => 0 := by
    funext j; simp only [broadcastInDim, constant, Ideal.ofBits_def, Ideal.ofBits_zero_f32]
  have zK : (broadcastInDim Cert.KernelIdeal.S4x4096x4096 ![] Cert.KernelIdeal.Facts₀.bcast_S_S4x4096x4096 (constant (F := Ideal) Cert.KernelIdeal.S_ .bf16 0x0000#16) : S.Idx → EReal) = fun _ => 0 := by
    funext j; simp only [broadcastInDim, constant, Ideal.ofBits_def, ofBits_zero_bf16]
  have core := congrFun (Cert.MaskedScatter.scatter_rowMask (α := EReal) Cert.KernelIdeal.scatter_S4x4096x4096_S4x4096x4x3_S4x4096x4_n_012_012_3 rfl rfl rfl rfl I hI C
    (uitofp (F := Ideal) .f32 B) Cert.KernelIdeal.Facts₀.bcast_S4096_S1x4096x1_1 Cert.KernelIdeal.Facts₀.bcast_S1x4096x1_S4x4096x4_0_1_2 Cert.ReferenceIdeal.Facts₀.bcast_S1x4096x1_S4x4096x4096_0_1_2) i
  rw [zR, zK]
  exact core.symm

end Cert.MatCore

end
-- ==== Proof.RefDotAt.lean ====
/-
  The reference's contraction read at an index.

  The reference multiplies, batch by batch, the rows of `X : [4, 128, 4096]` with the rows of
  `M : [4, 4096, 4096]`, contracting the last axis of both: at the extended reals the result at
  `(n, r, k)` is the plain sum `∑ l, X (n, r, l) · M (n, k, l)`.
-/
import proofs.«138733_j87840671137910_2_alg».proof.ReferenceIdeal
import Idealize.ShloMosaic.Lib.ValueIdx
import Idealize.ShloMosaic.PureOps.Ideal.Laws

noncomputable section

namespace Cert.ReferenceIdeal.DotAt

open Cert.ReferenceIdeal Idealize.ShloMosaic Idealize.ShloMosaic.ValueIdx
open scoped BigOperators

variable [Facts₀]

/-- The left operand's index at result index `(n, r, k)` and contraction position `l` is `(n, r, l)`. -/
theorem lhsIdx_at (n : Fin 4) (r : Fin 128) (k : Fin 4096) (l : Fin 4096) :
    dot_S4x128x4096_S4x4096x4096_S4x128x4096_2_2_1_1_0_0.lhsIdx (ix3 n r k)
        ((contrEquiv1 dot_S4x128x4096_S4x4096x4096_S4x128x4096_2_2_1_1_0_0 4096 rfl rfl).symm l)
      = ix3 n r l := by
  funext a
  apply Fin.ext
  match a with
  | ⟨0, _⟩ => rfl
  | ⟨1, _⟩ => rfl
  | ⟨2, _⟩ => rfl

/-- The right operand's index at result index `(n, r, k)` and contraction position `l` is `(n, k, l)`. -/
theorem rhsIdx_at (n : Fin 4) (r : Fin 128) (k : Fin 4096) (l : Fin 4096) :
    dot_S4x128x4096_S4x4096x4096_S4x128x4096_2_2_1_1_0_0.rhsIdx (ix3 n r k)
        ((contrEquiv1 dot_S4x128x4096_S4x4096x4096_S4x128x4096_2_2_1_1_0_0 4096 rfl rfl).symm l)
      = ix3 n k l := by
  funext a
  apply Fin.ext
  match a with
  | ⟨0, _⟩ => rfl
  | ⟨1, _⟩ => rfl
  | ⟨2, _⟩ => rfl

/-- The reference's batched contraction at `(n, r, k)`: the sum over the contracted axis of the
    products of the two operands' entries. -/
theorem dot_at (X : FVec Ideal S4x128x4096 .f32) (M : FVec Ideal S4x4096x4096 .f32)
    (n : Fin 4) (r : Fin 128) (k : Fin 4096) :
    Host.dotGeneral (F := Ideal) dot_S4x128x4096_S4x4096x4096_S4x128x4096_2_2_1_1_0_0 none X M (ix3 n r k)
      = ∑ l : Fin 4096, X (ix3 n r l) * M (ix3 n k l) := by
  refine (Ideal.dotGeneral_apply _ none .single X M (ix3 n r k)).trans ?_
  refine (Equiv.sum_comp (contrEquiv1 dot_S4x128x4096_S4x4096x4096_S4x128x4096_2_2_1_1_0_0 4096 rfl rfl).symm _).symm.trans ?_
  refine Finset.sum_congr rfl fun l _ => ?_
  rw [lhsIdx_at, rhsIdx_at]

end Cert.ReferenceIdeal.DotAt
-- ==== Proof.KI.IdxRow.lean ====
/-
  The middle component of every index vector of the kernel program's scatter is the row number: the index table is the
  concatenation of three one-component pieces, and the middle piece is the column of row numbers `0 … 4095` (an iota,
  passed through a wrap of negative values that leaves a row number alone), broadcast over the batch and the four
  corners.
-/
import proofs.«138733_j87840671137910_2_alg».proof.Proof.KI.Entry
import proofs.«138733_j87840671137910_2_alg».proof.Proof.LibRowIndex
import Idealize.ShloMosaic.Lib.StableHlo.Run

noncomputable section

namespace Cert.KernelIdeal.IdxRow

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable {F : FTy → Type} [FloatOps F]

set_option maxRecDepth 16384 in
set_option maxHeartbeats 16000000 in
theorem idx_row (m : (ℓ : Loc nD τ sig) → Buf (Elt F) ℓ) (c : Dev nD) (n : Fin 4) (r : Fin 4096) (q : Fin 4) :
    ((V m c main_v97 : S4x4096x4x3.Idx → BitVec 32) (ix4 n r q (1 : Fin 3))).toInt = (r.val : ℤ) := by
  dsimp only [V]
  simp only [stretches, hostOps0, hostOps0_1, hostOps0_2, hostOps0_3, hostOps0_4, List.flatten_cons, List.flatten_nil, List.append_nil, List.cons_append, List.nil_append]
  after_results_simp
  simp only [Matrix.cons_val]
  after_results_simp
  exact Idealize.ShloMosaic.LibRowIndex.table_row _ _ _ _ _ _ _ _ n r q

end Cert.KernelIdeal.IdxRow

end
-- ==== Proof.BridgeCore.lean ====
/-
  The reference's result is the kernel's. The reference ends at one contraction of the first argument with its masked
  matrix; read at entry `(n, r, k)` that is the sum over all columns `l` of `x[n, r, l] · mat[n, k, l]`, which is the kernel's
  result there as soon as the two matrices agree entry by entry — and they do, the two programs building them from the
  same coefficients, the same row mask and the same index table.
-/
import proofs.«138733_j87840671137910_2_alg».proof.Proof.MatCore
import proofs.«138733_j87840671137910_2_alg».proof.Proof.RefDotAt
import proofs.«138733_j87840671137910_2_alg».proof.Proof.RefRun
import proofs.«138733_j87840671137910_2_alg».proof.Proof.KI.Value
import proofs.«138733_j87840671137910_2_alg».proof.Proof.KI.IdxRow

noncomputable section

namespace Cert.BridgeCore

open Idealize.ShloMosaic Idealize.ShloMosaic.TcCoe Idealize.ShloMosaic.ValueIdx Idealize.SL.Sem Idealize.ShloMosaic.StableHlo
open scoped BigOperators

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ) (c : Dev 1)

set_option maxHeartbeats 4000000 in
theorem ref_eq_kernel_of
    (h0 : mR ((c.tc : Thread 1 Cert.ReferenceIdeal.τ).loc Cert.ReferenceIdeal.main_arg0) = mK ((c.tc : Thread 1 Cert.KernelIdeal.τ).loc Cert.KernelIdeal.main_arg0))
    (hcoef : (after Cert.ReferenceIdeal.RefRun.ops (launchContents mR c) (Cert.ReferenceIdeal.main_v66 : DevRef Cert.ReferenceIdeal.τ Cert.ReferenceIdeal.sig) : Cert.ReferenceIdeal.S4x4096x4.Idx → Elt Ideal .f32)
      = (Cert.KernelIdeal.Hand.V mK c Cert.KernelIdeal.main_v66 : Cert.KernelIdeal.S4x4096x4.Idx → Elt Ideal .f32))
    (hmask : (after Cert.ReferenceIdeal.RefRun.ops (launchContents mR c) (Cert.ReferenceIdeal.main_v23 : DevRef Cert.ReferenceIdeal.τ Cert.ReferenceIdeal.sig) : Cert.ReferenceIdeal.S4096.Idx → BitVec 1)
      = (Cert.KernelIdeal.Hand.V mK c Cert.KernelIdeal.main_v23 : Cert.KernelIdeal.S4096.Idx → BitVec 1))
    (hidx : (after Cert.ReferenceIdeal.RefRun.ops (launchContents mR c) (Cert.ReferenceIdeal.main_v92 : DevRef Cert.ReferenceIdeal.τ Cert.ReferenceIdeal.sig) : Cert.ReferenceIdeal.S4x4096x4x3.Idx → BitVec 32)
      = (Cert.KernelIdeal.Hand.V mK c Cert.KernelIdeal.main_v97 : Cert.KernelIdeal.S4x4096x4x3.Idx → BitVec 32))
    (hmat : (Cert.KernelIdeal.Hand.V mK c Cert.KernelIdeal.main_v98 : Cert.KernelIdeal.S4x4096x4096.Idx → Elt Ideal .bf16)
      = (Host.scatter Cert.KernelIdeal.scatter_S4x4096x4096_S4x4096x4x3_S4x4096x4_n_012_012_3 (fun _ b => b)
          (broadcastInDim Cert.KernelIdeal.S4x4096x4096 ![] Cert.KernelIdeal.Facts₀.bcast_S_S4x4096x4096 (constant (F := Ideal) Cert.KernelIdeal.S_ .bf16 0x0000#16))
          (Cert.KernelIdeal.Hand.V mK c Cert.KernelIdeal.main_v97 : Cert.KernelIdeal.S4x4096x4x3.Idx → BitVec 32)
          (truncf (F := Ideal) .bf16 (mulf (F := Ideal) (φ := .f32) (Cert.KernelIdeal.Hand.V mK c Cert.KernelIdeal.main_v66 : Cert.KernelIdeal.S4x4096x4.Idx → Elt Ideal .f32) (broadcastInDim Cert.KernelIdeal.S4x4096x4 ![0, 1, 2] Cert.KernelIdeal.Facts₀.bcast_S1x4096x1_S4x4096x4_0_1_2
            (broadcastInDim Cert.KernelIdeal.S1x4096x1 ![1] Cert.KernelIdeal.Facts₀.bcast_S4096_S1x4096x1_1 (uitofp (F := Ideal) .f32 (Cert.KernelIdeal.Hand.V mK c Cert.KernelIdeal.main_v23 : Cert.KernelIdeal.S4096.Idx → BitVec 1))))) Cert.KernelIdeal.Facts₀.bitsLt_bf16_f32)
          : Cert.KernelIdeal.S4x4096x4096.Idx → Elt Ideal .bf16)) :
    after Cert.ReferenceIdeal.RefRun.ops (launchContents mR c) (Cert.ReferenceIdeal.main_v98 : DevRef Cert.ReferenceIdeal.τ Cert.ReferenceIdeal.sig)
      = Cert.KernelIdeal.Hand.G (mK ((c.tc : Thread 1 Cert.KernelIdeal.τ).loc Cert.KernelIdeal.main_arg0)) (Cert.KernelIdeal.Hand.V mK c Cert.KernelIdeal.main_v98) := by
  rw [Cert.ReferenceIdeal.RefRun.result_eq_launch mR c, hcoef, hmask, hidx, h0]
  funext i
  obtain ⟨n, r, k, rfl⟩ : ∃ (n : Fin 4) (r : Fin 128) (k : Fin 4096), i = ix3 n r k := ⟨i 0, i 1, i 2, eq_ix3 i⟩
  rw [Cert.ReferenceIdeal.DotAt.dot_at]
  show _ = Cert.KernelIdeal.Hand.prodAt _ _ n r k
  unfold Cert.KernelIdeal.Hand.prodAt
  refine Finset.sum_congr rfl fun l _ => congrArg _ ?_
  refine (Cert.MatCore.mat_core _ (Cert.KernelIdeal.IdxRow.idx_row mK c) _ _ (ix3 n k l)).trans ?_
  exact (congrFun hmat (ix3 n k l)).symm

end Cert.BridgeCore

end
-- ==== Proof.Bridge.lean ====
/-
  The reference's result array is the kernel's, for memories that agree on the two arguments: the two programs run the
  same host operations on the second argument up to the coefficients, the row mask and the index table, so those three
  values agree; the rest is the equality of the two masked sparse matrices and of the two contractions.
-/
import proofs.«138733_j87840671137910_2_alg».proof.Proof.Shared
import proofs.«138733_j87840671137910_2_alg».proof.Proof.SharedIdx
import proofs.«138733_j87840671137910_2_alg».proof.Proof.SharedCoef
import proofs.«138733_j87840671137910_2_alg».proof.Proof.BridgeCore

noncomputable section

namespace Cert.Bridge

open Idealize.ShloMosaic Idealize.ShloMosaic.TcCoe Idealize.SL.Sem Idealize.ShloMosaic.StableHlo

theorem ref_eq_kernel (mK : (ℓ : Loc Cert.KernelIdeal.nD Cert.KernelIdeal.τ Cert.KernelIdeal.sig) → Buf (Elt Ideal) ℓ)
    (mR : (ℓ : Loc Cert.ReferenceIdeal.nD Cert.ReferenceIdeal.τ Cert.ReferenceIdeal.sig) → Buf (Elt Ideal) ℓ) (c : Dev 1)
    (h0 : mR ((c.tc : Thread 1 Cert.ReferenceIdeal.τ).loc Cert.ReferenceIdeal.main_arg0) = mK ((c.tc : Thread 1 Cert.KernelIdeal.τ).loc Cert.KernelIdeal.main_arg0))
    (h1 : mR ((c.tc : Thread 1 Cert.ReferenceIdeal.τ).loc Cert.ReferenceIdeal.main_arg1) = mK ((c.tc : Thread 1 Cert.KernelIdeal.τ).loc Cert.KernelIdeal.main_arg1)) :
    after Cert.ReferenceIdeal.RefRun.ops (launchContents mR c) (Cert.ReferenceIdeal.main_v98 : DevRef Cert.ReferenceIdeal.τ Cert.ReferenceIdeal.sig)
      = Cert.KernelIdeal.Hand.G (mK ((c.tc : Thread 1 Cert.KernelIdeal.τ).loc Cert.KernelIdeal.main_arg0)) (Cert.KernelIdeal.Hand.V mK c Cert.KernelIdeal.main_v98) :=
  Cert.BridgeCore.ref_eq_kernel_of mK mR c h0 (Cert.SharedCoef.shared_coef (F := Ideal) mR mK c h1) (Cert.Shared.shared_mask (F := Ideal) mR mK c h1)
    (Cert.SharedIdx.shared_idx (F := Ideal) mR mK c h1) (Cert.Shared.kernel_mat (F := Ideal) mK c)

end Cert.Bridge

end
-- ==== Proof.lean ====
/-
  The certificate of a batched product against a sparse remap matrix.

  Both programs build, from the sampling grid, a matrix with at most four nonzero entries per row: row `r` of batch `n`
  carries the four products of the clipped coordinates' fractional parts (and their complements) at the four corner
  columns of the cell the coordinates fall in, and a row whose coordinates leave the valid range in any batch is zeroed by
  a 0/1 row mask. The kernel's program masks the four coefficients before scattering them into a zero matrix and then
  multiplies tile by tile; the reference scatters first, masks the dense matrix, and multiplies in one contraction.

  At the exact instance the two results are equal entry by entry:
  * masking commutes with the scatter, because every update lands in its own row, so the mask entry an update carries is
    the mask entry of the place it lands, and an untouched entry is `0 = 0 · mask`;
  * the kernel's result block accumulates, from zero, the products of the four column tiles, and a sum over 4 × 1024
    columns taken tile by tile is the sum over all columns — addition of extended reals is associative and commutative
    with neutral zero, so no finiteness of the inputs is used;
  * rounding to a narrower float format is the identity at the exact instance.
  Each program runs to the end without a fault and leaves its arguments unchanged: the host operations write neither
  argument, the kernel reads the first through a window and never sees the second.
-/
import proofs.«138733_j87840671137910_2_alg».proof.Defs
import proofs.«138733_j87840671137910_2_alg».proof.Proof.KB.Frame
import proofs.«138733_j87840671137910_2_alg».proof.Proof.KI.Value
import proofs.«138733_j87840671137910_2_alg».proof.Proof.RefRun
import proofs.«138733_j87840671137910_2_alg».proof.Proof.Bridge
import proofs.«138733_j87840671137910_2_alg».proof.Proof.Gen.Pre_finite_inputs
import Idealize.ShloMosaic.Adequacy
import Idealize.ShloMosaic.Init

noncomputable section

namespace Cert.Proof

open Idealize.ShloMosaic Idealize.SL.Sem

/-- The word-level program runs to the end and keeps its arguments. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the arguments both programs end with the same result array: the product of the first
    argument with the transposed masked sparse matrix. -/
theorem algebraic : Cert.algebraic_KernelIdeal_ReferenceIdeal := by
  intro m ρ m' ρ' _ hagree
  refine ⟨fun c => Cert.KernelIdeal.Hand.G (m ((c.tc : Thread Cert.KernelIdeal.nD Cert.KernelIdeal.τ).loc Cert.KernelIdeal.main_arg0))
      (Cert.KernelIdeal.Hand.V m c Cert.KernelIdeal.main_v98), Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  exact Cert.Bridge.ref_eq_kernel m m' c (hagree c).1 (hagree c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
